-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x8000000 : Shape := ⟨2, ![2, 8000000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x8000000 : S_.BroadcastsInDim S2x8000000 (![] : Fin 0 → Fin S2x8000000.rank)
  reducesTo_S2x8000000_S_d0_1 : S2x8000000.ReducesTo [0, 1] S_

variable [Facts]

def fn_part1 {F : FTy → Type} [FloatOps F] (main_arg1 : IVec S2x8000000 32) (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S2x8000000 32 := broadcastInDim S2x8000000 ![] bcast_S_S2x8000000 main_c_8
  let main_v25 : IVec S2x8000000 1 := cmpi .sge main_arg1 main_v24
  let main_c_9 : IVec S_ 32 := constantI S_ 32 500000#32
  let main_v26 : IVec S2x8000000 32 := broadcastInDim S2x8000000 ![] bcast_S_S2x8000000 main_c_9
  let main_v27 : IVec S2x8000000 1 := cmpi .slt main_arg1 main_v26
  let main_v28 : IVec S2x8000000 1 := andi main_v25 main_v27
  let main_c_10 : IVec S_ 1 := constantI S_ 1 1#1
  let main_v29 : IVec S_ 1 := (fun x v => Host.reduce IntOp.andi x v reducesTo_S2x8000000_S_d0_1 h_S_) main_v28 main_c_10
  let main_v30 : IVec S_ 1 := andi main_v23 main_v29
  main_v30

def fn {F : FTy → Type} [FloatOps F] (main_arg0 : FVec F S500000x128 .f32) (main_arg1 : IVec S2x8000000 32) (main_arg2 : FVec F S128x16 .f32) (main_arg3 : FVec F S16 .f32) (main_arg4 : FVec F S16x2 .f32) (main_arg5 : FVec F S2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg1 main_arg5 main_v13 main_v16
-- ==== Kernel.lean ====
abbrev S500000x128 : Shape := ⟨2, ![500000, 128]⟩
abbrev S2x8000000 : Shape := ⟨2, ![2, 8000000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x8000000 : Shape := ⟨2, ![1, 8000000]⟩
abbrev S8000000 : Shape := ⟨1, ![8000000]⟩
abbrev S_ : Shape := ⟨0, ![]⟩
abbrev S500000 : Shape := ⟨1, ![500000]⟩
abbrev S8000000x1 : Shape := ⟨2, ![8000000, 1]⟩
abbrev S500000x16 : Shape := ⟨2, ![500000, 16]⟩
abbrev S10000x128 : Shape := ⟨2, ![10000, 128]⟩
abbrev S10000x16 : Shape := ⟨2, ![10000, 16]⟩
abbrev S8000000x16 : Shape := ⟨2, ![8000000, 16]⟩
abbrev S1x16 : Shape := ⟨2, ![1, 16]⟩
abbrev S500000x1 : Shape := ⟨2, ![500000, 1]⟩
abbrev S10000x1 : Shape := ⟨2, ![10000, 1]⟩
abbrev S500000x2 : Shape := ⟨2, ![500000, 2]⟩
abbrev S10000x2 : Shape := ⟨2, ![10000, 2]⟩
abbrev S8000000x2 : Shape := ⟨2, ![8000000, 2]⟩
abbrev S1x2 : Shape := ⟨2, ![1, 2]⟩
abbrev S10000 : Shape := ⟨1, ![10000]⟩

abbrev nBuf : Space → Nat
  | .hbm => 99
  | .vmem => 28
  | .smem => 0
  | _ => 0

abbrev bufTy : (tb : Table) → Fin (tcTables nBuf tb) → BufTy
  | .hbm, ⟨0, _⟩ => ⟨S500000x128, .f32⟩
  | .hbm, ⟨1, _⟩ => ⟨S2x8000000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x8000000, .i32⟩
  | .hbm, ⟨7, _⟩ => ⟨S8000000, .i32⟩
  | .hbm, ⟨8, _⟩ => ⟨S1x8000000, .i32⟩
  | .hbm, ⟨9, _⟩ => ⟨S8000000, .i32⟩
  | .hbm, ⟨10, _⟩ => ⟨S_, .i32⟩
  | .hbm, ⟨11, _⟩ => ⟨S8000000, .i32⟩
  | .hbm, ⟨12, _⟩ => ⟨S_, .i32⟩
  | .hbm, ⟨13, _⟩ => ⟨S500000, .i32⟩
  | .hbm, ⟨14, _⟩ => ⟨S8000000x1, .i32⟩
  | .hbm, ⟨15, _⟩ => ⟨S500000, .i32⟩
  | .hbm, ⟨16, _⟩ => ⟨S500000, .f32⟩
  | .hbm, ⟨17, _⟩ => ⟨S_, .f32⟩
  | .hbm, ⟨18, _⟩ => ⟨S500000, .f32⟩
  | .hbm, ⟨19, _⟩ => ⟨S500000, .f32⟩
  | .hbm, ⟨20, _⟩ => ⟨S500000, .f32⟩
  | .hbm, ⟨21, _⟩ => ⟨S500000x16, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S8000000, .f32⟩
  | .hbm, ⟨40, _⟩ => ⟨S8000000, .f32⟩
  | .hbm, ⟨41, _⟩ => ⟨S_, .i32⟩
  | .hbm, ⟨42, _⟩ => ⟨S8000000, .i32⟩
  | .hbm, ⟨43, _⟩ => ⟨S8000000, .i1⟩
  | .hbm, ⟨44, _⟩ => ⟨S_, .i32⟩
  | .hbm, ⟨45, _⟩ => ⟨S8000000, .i32⟩
  | .hbm, ⟨46, _⟩ => ⟨S8000000, .i32⟩
  | .hbm, ⟨47, _⟩ => ⟨S8000000, .i32⟩
  | .hbm, ⟨48, _⟩ => ⟨S8000000x1, .i32⟩
  | .hbm, ⟨49, _⟩ => ⟨S8000000x16, .f32⟩
  | .hbm, ⟨50, _⟩ => ⟨S8000000x1, .f32⟩
  | .hbm, ⟨51, _⟩ => ⟨S8000000x16, .f32⟩
  | .hbm, ⟨52, _⟩ => ⟨S8000000x16, .f32⟩
  | .hbm, ⟨53, _⟩ => ⟨S_, .f32⟩
  | .hbm, ⟨54, _⟩ => ⟨S500000x16, .f32⟩
  | .hbm, ⟨55, _⟩ => ⟨S8000000x1, .i32⟩
  | .hbm, ⟨56, _⟩ => ⟨S500000x16, .f32⟩
  | .hbm, ⟨57, _⟩ => ⟨S1x16, .f32⟩
  | .hbm, ⟨58, _⟩ => ⟨S500000x1, .f32⟩
  | .hbm, ⟨59, _⟩ => ⟨S500000x16, .f32⟩
  | .hbm, ⟨60, _⟩ => ⟨S500000x2, .f32⟩
  | .hbm, ⟨61, _⟩ => ⟨S_, .i32⟩
  | .hbm, ⟨62, _⟩ => ⟨S8000000, .i32⟩
  | .hbm, ⟨63, _⟩ => ⟨S8000000, .i1⟩
  | .hbm, ⟨64, _⟩ => ⟨S_, .i32⟩
  | .hbm, ⟨65, _⟩ => ⟨S8000000, .i32⟩
  | .hbm, ⟨66, _⟩ => ⟨S8000000, .i32⟩
  | .hbm, ⟨67, _⟩ => ⟨S8000000, .i32⟩
  | .hbm, ⟨68, _⟩ => ⟨S8000000x1, .i32⟩
  | .hbm, ⟨69, _⟩ => ⟨S8000000, .f32⟩
  | .hbm, ⟨70, _⟩ => ⟨S_, .i32⟩
  | .hbm, ⟨71, _⟩ => ⟨S8000000, .i32⟩
  | .hbm, ⟨72, _⟩ => ⟨S8000000, .i1⟩
  | .hbm, ⟨73, _⟩ => ⟨S_, .i32⟩
  | .hbm, ⟨74, _⟩ => ⟨S8000000, .i32⟩
  | .hbm, ⟨75, _⟩ => ⟨S8000000, .i32⟩
  | .hbm, ⟨76, _⟩ => ⟨S8000000, .i32⟩
  | .hbm, ⟨77, _⟩ => ⟨S8000000x1, .i32⟩
  | .hbm, ⟨78, _⟩ => ⟨S8000000, .f32⟩
  | .hbm, ⟨79, _⟩ => ⟨S8000000, .f32⟩
  | .hbm, ⟨80, _⟩ => ⟨S_, .i32⟩
  | .hbm, ⟨81, _⟩ => ⟨S8000000, .i32⟩
  | .hbm, ⟨82, _⟩ => ⟨S8000000, .i1⟩
  | .hbm, ⟨83, _⟩ => ⟨S_, .i32⟩
  | .hbm, ⟨84, _⟩ => ⟨S8000000, .i32⟩
  | .hbm, ⟨85, _⟩ => ⟨S8000000, .i32⟩
  | .hbm, ⟨86, _⟩ => ⟨S8000000, .i32⟩
  | .hbm, ⟨87, _⟩ => ⟨S8000000x1, .i32⟩
  | .hbm, ⟨88, _⟩ => ⟨S8000000x2, .f32⟩
  | .hbm, ⟨89, _⟩ => ⟨S8000000x1, .f32⟩
  | .hbm, ⟨90, _⟩ => ⟨S8000000x2, .f32⟩
  | .hbm, ⟨91, _⟩ => ⟨S8000000x2, .f32⟩
  | .hbm, ⟨92, _⟩ => ⟨S_, .f32⟩
  | .hbm, ⟨93, _⟩ => ⟨S500000x2, .f32⟩
  | .hbm, ⟨94, _⟩ => ⟨S8000000x1, .i32⟩
  | .hbm, ⟨95, _⟩ => ⟨S500000x2, .f32⟩
  | .hbm, ⟨96, _⟩ => ⟨S1x2, .f32⟩
  | .hbm, ⟨97, _⟩ => ⟨S500000x1, .f32⟩
  | .hbm, ⟨98, _⟩ => ⟨S500000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x2, .f32⟩
  | .local _ .vmem, ⟨17, _⟩ => ⟨S10000x2, .f32⟩
  | .local _ .vmem, ⟨18, _⟩ => ⟨S10000x2, .f32⟩
  | .local _ .vmem, ⟨19, _⟩ => ⟨S10000x2, .f32⟩
  | .local _ .vmem, ⟨20, _⟩ => ⟨S10000x2, .f32⟩
  | .local _ .vmem, ⟨21, _⟩ => ⟨S10000x2, .f32⟩
  | .local _ .vmem, ⟨22, _⟩ => ⟨S10000x2, .f32⟩
  | .local _ .vmem, ⟨23, _⟩ => ⟨S10000x1, .f32⟩
  | .local _ .vmem, ⟨24, _⟩ => ⟨S10000x1, .f32⟩
  | .local _ .vmem, ⟨25, _⟩ => ⟨S1x2, .f32⟩
  | .local _ .vmem, ⟨26, _⟩ => ⟨S10000x2, .f32⟩
  | .local _ .vmem, ⟨27, _⟩ => ⟨S10000x2, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_c_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S500000 : S_.BroadcastsInDim S500000 (![] : Fin 0 → Fin S500000.rank)
  bcast_S8000000_S8000000x1_0 : S8000000.BroadcastsInDim S8000000x1 (![0] : Fin 1 → Fin S8000000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S8000000x1_S8000000x16_0_1 : S8000000x1.BroadcastsInDim S8000000x16 (![0, 1] : Fin 2 → Fin S8000000x16.rank)
  bcast_S_S500000x16 : S_.BroadcastsInDim S500000x16 (![] : Fin 0 → Fin S500000x16.rank)
  shapeCasts_S16_S1x16 : S16.ShapeCasts S1x16
  shapeCasts_S500000_S500000x1 : S500000.ShapeCasts S500000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x16_S10000x16 : S10000x16.ShapeCasts S10000x16
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S8000000x1_S8000000x2_0_1 : S8000000x1.BroadcastsInDim S8000000x2 (![0, 1] : Fin 2 → Fin S8000000x2.rank)
  bcast_S_S500000x2 : S_.BroadcastsInDim S500000x2 (![] : Fin 0 → Fin S500000x2.rank)
  shapeCasts_S2_S1x2 : S2.ShapeCasts S1x2
  shapeCasts_S10000x2_S10000x2 : S10000x2.ShapeCasts S10000x2
  broadcasts_S10000x1_S10000x2 : S10000x1.Broadcasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  scatter_S500000_S8000000x1_S8000000_n_0_0_1_wf : ScatterDims.WF S500000 S8000000x1 S8000000 [] [0] [0] 1
  dot_S10000x128_S128x16_S10000x16_1_0_0_1_n_n_wf : DotDims.WF S10000x128 S128x16 S10000x16 [1] [0] [0] [1] [] []
  gather_S500000_S8000000x1_S8000000_n_0_n_n_0_1_1_wf : GatherDims.WF S500000 S8000000x1 S8000000 [] [0] [] [0] [] 1 ![1]
  gather_S500000x16_S8000000x1_S8000000x16_1_0_n_n_0_1_116_wf : GatherDims.WF S500000x16 S8000000x1 S8000000x16 [1] [0] [] [0] [] 1 ![1, 16]
  scatter_S500000x16_S8000000x1_S8000000x16_1_0_0_1_wf : ScatterDims.WF S500000x16 S8000000x1 S8000000x16 [1] [0] [0] 1
  dot_S10000x16_S16x2_S10000x2_1_0_0_1_n_n_wf : DotDims.WF S10000x16 S16x2 S10000x2 [1] [0] [0] [1] [] []
  gather_S500000x2_S8000000x1_S8000000x2_1_0_n_n_0_1_12_wf : GatherDims.WF S500000x2 S8000000x1 S8000000x2 [1] [0] [] [0] [] 1 ![1, 2]
  scatter_S500000x2_S8000000x1_S8000000x2_1_0_0_1_wf : ScatterDims.WF S500000x2 S8000000x1 S8000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S500000x16.size a
  hwx1_1 : ∀ i : grid1.Coords, EltTy.bits .f32 = 32 ∨ (Rect.block (s := S500000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S500000x1.size a
  hwx1_2 : ∀ i : grid1.Coords, EltTy.bits .f32 = 32 ∨ (Rect.block (s := S500000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S500000x16.size a
  hwx1_4 : ∀ i : grid1.Coords, EltTy.bits .f32 = 32 ∨ (Rect.block (s := S500000x16) S10000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S500000x16.size a
  hwx2_0 : ∀ i : grid2.Coords, EltTy.bits .f32 = 32 ∨ (Rect.block (s := S500000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S500000x2.size a
  hwx2_2 : ∀ i : grid2.Coords, EltTy.bits .f32 = 32 ∨ (Rect.block (s := S500000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S500000x2.size a
  hwx3_0 : ∀ i : grid3.Coords, EltTy.bits .f32 = 32 ∨ (Rect.block (s := S500000x2) S10000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x2.size a ≤ S500000x2.size a
  hwx3_1 : ∀ i : grid3.Coords, EltTy.bits .f32 = 32 ∨ (Rect.block (s := S500000x2) S10000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S500000x1.size a
  hwx3_2 : ∀ i : grid3.Coords, EltTy.bits .f32 = 32 ∨ (Rect.block (s := S500000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x2.size a ≤ S500000x2.size a
  hwx3_4 : ∀ i : grid3.Coords, EltTy.bits .f32 = 32 ∨ (Rect.block (s := S500000x2) S10000x2.size (cc3_transform_4 i) (hinb3_4 i)).WholeWords (EltTy.packing .f32)

variable [Facts₀]

def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def gather_S500000x16_S8000000x1_S8000000x16_1_0_n_n_0_1_116 : GatherDims S500000x16 S8000000x1 S8000000x16 where
  offsetDims := [1]
  collapsedSliceDims := [0]
  operandBatchingDims := []
  startIndicesBatchingDims := []
  startIndexMap := [0]
  indexVectorDim := 1
  sliceSizes := ![1, 16]
  wf := gather_S500000x16_S8000000x1_S8000000x16_1_0_n_n_0_1_116_wf
def scatter_S500000x16_S8000000x1_S8000000x16_1_0_0_1 : ScatterDims S500000x16 S8000000x1 S8000000x16 where
  updateWindowDims := [1]
  insertedWindowDims := [0]
  scatterDimsToOperandDims := [0]
  indexVectorDim := 1
  wf := scatter_S500000x16_S8000000x1_S8000000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S500000x2_S8000000x1_S8000000x2_1_0_n_n_0_1_12 : GatherDims S500000x2 S8000000x1 S8000000x2 where
  offsetDims := [1]
  collapsedSliceDims := [0]
  operandBatchingDims := []
  startIndicesBatchingDims := []
  startIndexMap := [0]
  indexVectorDim := 1
  sliceSizes := ![1, 2]
  wf := gather_S500000x2_S8000000x1_S8000000x2_1_0_n_n_0_1_12_wf
def scatter_S500000x2_S8000000x1_S8000000x2_1_0_0_1 : ScatterDims S500000x2 S8000000x1 S8000000x2 where
  updateWindowDims := [1]
  insertedWindowDims := [0]
  scatterDimsToOperandDims := [0]
  indexVectorDim := 1
  wf := scatter_S500000x2_S8000000x1_S8000000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S10000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S500000x128 : Shape := ⟨2, ![500000, 128]⟩
abbrev S2x8000000 : Shape := ⟨2, ![2, 8000000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x8000000 : Shape := ⟨2, ![1, 8000000]⟩
abbrev S8000000 : Shape := ⟨1, ![8000000]⟩
abbrev S500000x16 : Shape := ⟨2, ![500000, 16]⟩
abbrev S_ : Shape := ⟨0, ![]⟩
abbrev S500000 : Shape := ⟨1, ![500000]⟩
abbrev S8000000x1 : Shape := ⟨2, ![8000000, 1]⟩
abbrev S8000000x16 : Shape := ⟨2, ![8000000, 16]⟩
abbrev S500000x1 : Shape := ⟨2, ![500000, 1]⟩
abbrev S1x16 : Shape := ⟨2, ![1, 16]⟩
abbrev S500000x2 : Shape := ⟨2, ![500000, 2]⟩
abbrev S8000000x2 : Shape := ⟨2, ![8000000, 2]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S500000x128, .f32⟩
  | 1 => ⟨S2x8000000, .i32⟩
  | 2 => ⟨S128x16, .f32⟩
  | 3 => ⟨S16, .f32⟩
  | 4 => ⟨S16x2, .f32⟩
  | 5 => ⟨S2, .f32⟩
  | 6 => ⟨S1x8000000, .i32⟩
  | 7 => ⟨S8000000, .i32⟩
  | 8 => ⟨S1x8000000, .i32⟩
  | 9 => ⟨S8000000, .i32⟩
  | 10 => ⟨S500000x16, .f32⟩
  | 11 => ⟨S_, .f32⟩
  | 12 => ⟨S500000, .f32⟩
  | 13 => ⟨S_, .i32⟩
  | 14 => ⟨S8000000, .i32⟩
  | 15 => ⟨S8000000, .i1⟩
  | 16 => ⟨S_, .i32⟩
  | 17 => ⟨S8000000, .i32⟩
  | 18 => ⟨S8000000, .i32⟩
  | 19 => ⟨S8000000, .i32⟩
  | 20 => ⟨S8000000x1, .i32⟩
  | 21 => ⟨S_, .f32⟩
  | 22 => ⟨S8000000, .f32⟩
  | 23 => ⟨S500000, .f32⟩
  | 24 => ⟨S_, .f32⟩
  | 25 => ⟨S500000, .f32⟩
  | 26 => ⟨S500000, .f32⟩
  | 27 => ⟨S500000, .f32⟩
  | 28 => ⟨S_, .i32⟩
  | 29 => ⟨S8000000, .i32⟩
  | 30 => ⟨S8000000, .i1⟩
  | 31 => ⟨S_, .i32⟩
  | 32 => ⟨S8000000, .i32⟩
  | 33 => ⟨S8000000, .i32⟩
  | 34 => ⟨S8000000, .i32⟩
  | 35 => ⟨S8000000x1, .i32⟩
  | 36 => ⟨S8000000, .f32⟩
  | 37 => ⟨S_, .i32⟩
  | 38 => ⟨S8000000, .i32⟩
  | 39 => ⟨S8000000, .i1⟩
  | 40 => ⟨S_, .i32⟩
  | 41 => ⟨S8000000, .i32⟩
  | 42 => ⟨S8000000, .i32⟩
  | 43 => ⟨S8000000, .i32⟩
  | 44 => ⟨S8000000x1, .i32⟩
  | 45 => ⟨S8000000, .f32⟩
  | 46 => ⟨S8000000, .f32⟩
  | 47 => ⟨S_, .i32⟩
  | 48 => ⟨S8000000, .i32⟩
  | 49 => ⟨S8000000, .i1⟩
  | 50 => ⟨S_, .i32⟩
  | 51 => ⟨S8000000, .i32⟩
  | 52 => ⟨S8000000, .i32⟩
  | 53 => ⟨S8000000, .i32⟩
  | 54 => ⟨S8000000x1, .i32⟩
  | 55 => ⟨S8000000x16, .f32⟩
  | 56 => ⟨S8000000x1, .f32⟩
  | 57 => ⟨S8000000x16, .f32⟩
  | 58 => ⟨S8000000x16, .f32⟩
  | 59 => ⟨S_, .f32⟩
  | 60 => ⟨S500000x16, .f32⟩
  | 61 => ⟨S8000000x1, .i32⟩
  | 62 => ⟨S500000x16, .f32⟩
  | 63 => ⟨S500000, .f32⟩
  | 64 => ⟨S500000x1, .f32⟩
  | 65 => ⟨S500000x16, .f32⟩
  | 66 => ⟨S500000x16, .f32⟩
  | 67 => ⟨S500000x16, .f32⟩
  | 68 => ⟨S1x16, .f32⟩
  | 69 => ⟨S500000x16, .f32⟩
  | 70 => ⟨S500000x16, .f32⟩
  | 71 => ⟨S_, .f32⟩
  | 72 => ⟨S500000x16, .f32⟩
  | 73 => ⟨S500000x16, .f32⟩
  | 74 => ⟨S500000x2, .f32⟩
  | 75 => ⟨S_, .f32⟩
  | 76 => ⟨S500000, .f32⟩
  | 77 => ⟨S_, .i32⟩
  | 78 => ⟨S8000000, .i32⟩
  | 79 => ⟨S8000000, .i1⟩
  | 80 => ⟨S_, .i32⟩
  | 81 => ⟨S8000000, .i32⟩
  | 82 => ⟨S8000000, .i32⟩
  | 83 => ⟨S8000000, .i32⟩
  | 84 => ⟨S8000000x1, .i32⟩
  | 85 => ⟨S_, .f32⟩
  | 86 => ⟨S8000000, .f32⟩
  | 87 => ⟨S500000, .f32⟩
  | 88 => ⟨S_, .f32⟩
  | 89 => ⟨S500000, .f32⟩
  | 90 => ⟨S500000, .f32⟩
  | 91 => ⟨S500000, .f32⟩
  | 92 => ⟨S_, .i32⟩
  | 93 => ⟨S8000000, .i32⟩
  | 94 => ⟨S8000000, .i1⟩
  | 95 => ⟨S_, .i32⟩
  | 96 => ⟨S8000000, .i32⟩
  | 97 => ⟨S8000000, .i32⟩
  | 98 => ⟨S8000000, .i32⟩
  | 99 => ⟨S8000000x1, .i32⟩
  | 100 => ⟨S8000000, .f32⟩
  | 101 => ⟨S_, .i32⟩
  | 102 => ⟨S8000000, .i32⟩
  | 103 => ⟨S8000000, .i1⟩
  | 104 => ⟨S_, .i32⟩
  | 105 => ⟨S8000000, .i32⟩
  | 106 => ⟨S8000000, .i32⟩
  | 107 => ⟨S8000000, .i32⟩
  | 108 => ⟨S8000000x1, .i32⟩
  | 109 => ⟨S8000000, .f32⟩
  | 110 => ⟨S8000000, .f32⟩
  | 111 => ⟨S_, .i32⟩
  | 112 => ⟨S8000000, .i32⟩
  | 113 => ⟨S8000000, .i1⟩
  | 114 => ⟨S_, .i32⟩
  | 115 => ⟨S8000000, .i32⟩
  | 116 => ⟨S8000000, .i32⟩
  | 117 => ⟨S8000000, .i32⟩
  | 118 => ⟨S8000000x1, .i32⟩
  | 119 => ⟨S8000000x2, .f32⟩
  | 120 => ⟨S8000000x1, .f32⟩
  | 121 => ⟨S8000000x2, .f32⟩
  | 122 => ⟨S8000000x2, .f32⟩
  | 123 => ⟨S_, .f32⟩
  | 124 => ⟨S500000x2, .f32⟩
  | 125 => ⟨S8000000x1, .i32⟩
  | 126 => ⟨S500000x2, .f32⟩
  | 127 => ⟨S500000, .f32⟩
  | _ => ⟨S500000x128, .f32⟩

abbrev hbmTy0_1 (i : Nat) : BufTy := match i % 128 with
  | 0 => ⟨S500000x1, .f32⟩
  | 1 => ⟨S500000x2, .f32⟩
  | 2 => ⟨S500000x2, .f32⟩
  | 3 => ⟨S500000x2, .f32⟩
  | 4 => ⟨S1x2, .f32⟩
  | 5 => ⟨S500000x2, .f32⟩
  | 6 => ⟨S500000x2, .f32⟩
  | 7 => ⟨S_, .f32⟩
  | 8 => ⟨S500000, .f32⟩
  | 9 => ⟨S_, .f32⟩
  | 10 => ⟨S500000, .f32⟩
  | 11 => ⟨S500000, .f32⟩
  | 12 => ⟨S500000x1, .f32⟩
  | 13 => ⟨S500000x2, .f32⟩
  | 14 => ⟨S500000x2, .f32⟩
  | 15 => ⟨S500000x2, .f32⟩
  | 16 => ⟨S_, .f32⟩
  | 17 => ⟨S500000, .f32⟩
  | 18 => ⟨S500000x1, .f32⟩
  | 19 => ⟨S500000x1, .f32⟩
  | 20 => ⟨S500000x2, .f32⟩
  | 21 => ⟨S500000x2, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_call1_cst_0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_cst_1 : Ref sig .tc := ⟨.hbm, 144, rfl⟩
abbrev main_call1_v7 : Ref sig .tc := ⟨.hbm, 145, rfl⟩
abbrev main_call1_v8 : Ref sig .tc := ⟨.hbm, 146, rfl⟩
abbrev main_call1_v9 : Ref sig .tc := ⟨.hbm, 147, rfl⟩
abbrev main_call1_v10 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S500000 : S_.BroadcastsInDim S500000 (![] : Fin 0 → Fin S500000.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x16_0_1 : S8000000x1.BroadcastsInDim S8000000x16 (![0, 1] : Fin 2 → Fin S8000000x16.rank)
  bcast_S_S500000x16 : S_.BroadcastsInDim S500000x16 (![] : Fin 0 → Fin S500000x16.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S8000000x1_S8000000x2_0_1 : S8000000x1.BroadcastsInDim S8000000x2 (![0, 1] : Fin 2 → Fin S8000000x2.rank)
  bcast_S_S500000x2 : S_.BroadcastsInDim S500000x2 (![] : Fin 0 → Fin S500000x2.rank)
  bcast_S500000x1_S500000x2_0_1 : S500000x1.BroadcastsInDim S500000x2 (![0, 1] : Fin 2 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  h_S_ : 0 < S_.numel
  dot_S500000x128_S128x16_S500000x16_1_0_0_1_n_n_wf : DotDims.WF S500000x128 S128x16 S500000x16 [1] [0] [0] [1] [] []
  scatter_S500000_S8000000x1_S8000000_n_0_0_1_wf : ScatterDims.WF S500000 S8000000x1 S8000000 [] [0] [0] 1
  gather_S500000_S8000000x1_S8000000_n_0_n_n_0_1_1_wf : GatherDims.WF S500000 S8000000x1 S8000000 [] [0] [] [0] [] 1 ![1]
  gather_S500000x16_S8000000x1_S8000000x16_1_0_n_n_0_1_116_wf : GatherDims.WF S500000x16 S8000000x1 S8000000x16 [1] [0] [] [0] [] 1 ![1, 16]
  scatter_S500000x16_S8000000x1_S8000000x16_1_0_0_1_wf : ScatterDims.WF S500000x16 S8000000x1 S8000000x16 [1] [0] [0] 1
  dot_S500000x16_S16x2_S500000x2_1_0_0_1_n_n_wf : DotDims.WF S500000x16 S16x2 S500000x2 [1] [0] [0] [1] [] []
  gather_S500000x2_S8000000x1_S8000000x2_1_0_n_n_0_1_12_wf : GatherDims.WF S500000x2 S8000000x1 S8000000x2 [1] [0] [] [0] [] 1 ![1, 2]
  scatter_S500000x2_S8000000x1_S8000000x2_1_0_0_1_wf : ScatterDims.WF S500000x2 S8000000x1 S8000000x2 [1] [0] [0] 1

variable [Facts₀]

def dot_S500000x128_S128x16_S500000x16_1_0_0_1_n_n : DotDims S500000x128 S128x16 S500000x16 where
  lhsContracting := [1]
  rhsContracting := [0]
  lhsNonContracting := [0]
  rhsNonContracting := [1]
  lhsBatch := []
  rhsBatch := []
  wf := dot_S500000x128_S128x16_S500000x16_1_0_0_1_n_n_wf
def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def gather_S500000x16_S8000000x1_S8000000x16_1_0_n_n_0_1_116 : GatherDims S500000x16 S8000000x1 S8000000x16 where
  offsetDims := [1]
  collapsedSliceDims := [0]
  operandBatchingDims := []
  startIndicesBatchingDims := []
  startIndexMap := [0]
  indexVectorDim := 1
  sliceSizes := ![1, 16]
  wf := gather_S500000x16_S8000000x1_S8000000x16_1_0_n_n_0_1_116_wf
def scatter_S500000x16_S8000000x1_S8000000x16_1_0_0_1 : ScatterDims S500000x16 S8000000x1 S8000000x16 where
  updateWindowDims := [1]
  insertedWindowDims := [0]
  scatterDimsToOperandDims := [0]
  indexVectorDim := 1
  wf := scatter_S500000x16_S8000000x1_S8000000x16_1_0_0_1_wf
def dot_S500000x16_S16x2_S500000x2_1_0_0_1_n_n : DotDims S500000x16 S16x2 S500000x2 where
  lhsContracting := [1]
  rhsContracting := [0]
  lhsNonContracting := [0]
  rhsNonContracting := [1]
  lhsBatch := []
  rhsBatch := []
  wf := dot_S500000x16_S16x2_S500000x2_1_0_0_1_n_n_wf
def gather_S500000x2_S8000000x1_S8000000x2_1_0_n_n_0_1_12 : GatherDims S500000x2 S8000000x1 S8000000x2 where
  offsetDims := [1]
  collapsedSliceDims := [0]
  operandBatchingDims := []
  startIndicesBatchingDims := []
  startIndexMap := [0]
  indexVectorDim := 1
  sliceSizes := ![1, 2]
  wf := gather_S500000x2_S8000000x1_S8000000x2_1_0_n_n_0_1_12_wf
def scatter_S500000x2_S8000000x1_S8000000x2_1_0_0_1 : ScatterDims S500000x2 S8000000x1 S8000000x2 where
  updateWindowDims := [1]
  insertedWindowDims := [0]
  scatterDimsToOperandDims := [0]
  indexVectorDim := 1
  wf := scatter_S500000x2_S8000000x1_S8000000x2_1_0_0_1_wf

class Facts : Prop extends Facts₀ where

variable [Facts]
-- ==== Proof.KRun.lean ====
/-
  The idealized kernel's run WITH its result: the program is four pipelined kernel regions among three
  stretches of host operations, and its buffers at each boundary are a fold from the launch memory (the
  boundary contents `W0 … W7` of the frame module). Every execution ends with every unscoped buffer at the last
  boundary's contents, so in particular the result buffer ends at `W7`'s value of it, and the six argument
  arrays end as launched.
-/
import proofs.«107481_j16398185136753_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the last
    boundary's contents of it and the argument arrays unchanged. -/
theorem run_value : θ_run defs (onTc (τ := τ) (main (F := F))) ⟨m, fun _ => 0, ρ⟩ (fun r => ∀ c : Dev nD,
      r.2.mem ((c.tc : Thread nD τ).loc main_v75) = W7 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v75 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.Spec.lean ====
/-
  The mathematics of the two graph-convolution layers, as plain functions on extended reals.
  A node-feature array is indexed by (row, column). One layer is: a product of the feature rows with a weight
  matrix (`lin`); for each row, the aggregate plus the row's own product scaled by the square of the row's inverse
  root degree, plus the bias of the column (`comb`); then either the maximum with zero (`relu`) or, for two
  columns, the row's log-softmax (`lsm`): the entry minus the row maximum, minus the logarithm of the sum of the
  exponentials of the row's shifted entries.
  Every formula is ROW-LOCAL: the result's row depends on the same row of the row-indexed inputs only, so the
  formula of the arrays read at a row-shifted index is the formula of the row-shifted arrays (`*_shift`): this is
  what lets a computation carried out block of rows by block of rows be read as one computation on whole arrays.
-/
import Idealize.ShloMosaic.PureOps.Ideal
import Idealize.ShloMosaic.Lib.ValueIdx

noncomputable section

namespace Cert.Spec

open Idealize.ShloMosaic Idealize.ShloMosaic.ValueIdx

/-- Arrays of extended reals indexed by (row, column). -/
abbrev T (n0 n1 : Nat) := (⟨2, ![n0, n1]⟩ : Shape).Idx → EReal

/-- The row of an index. -/
def row {n0 n1 : Nat} (i : (⟨2, ![n0, n1]⟩ : Shape).Idx) : Fin n0 := ⟨(i 0).val, (i 0).isLt⟩
/-- The column of an index. -/
def col {n0 n1 : Nat} (i : (⟨2, ![n0, n1]⟩ : Shape).Idx) : Fin n1 := ⟨(i 1).val, (i 1).isLt⟩

theorem row_ix2 {n0 n1 : Nat} (a : Fin n0) (b : Fin n1) : row (ix2 a b) = a := rfl
theorem col_ix2 {n0 n1 : Nat} (a : Fin n0) (b : Fin n1) : col (ix2 a b) = b := rfl
theorem ix2_row_col {n0 n1 : Nat} (i : (⟨2, ![n0, n1]⟩ : Shape).Idx) : ix2 (row i) (col i) = i := (eq_ix2 i).symm

/-- Rows times a weight matrix: entry (r, c) is the sum over k of x(r, k) · w(k, c). -/
def lin {N K M : Nat} (x : T N K) (w : T K M) : T N M :=
  fun i => ∑ k : Fin K, x (ix2 (row i) k) * w (ix2 k (col i))

/-- The aggregate, plus the row's own features scaled by the squared inverse root degree of the row, plus the bias. -/
def comb {N M : Nat} (agg h : T N M) (d : T N 1) (b : T 1 M) : T N M :=
  fun i => (agg i + h i * (d (ix2 (row i) 0) * d (ix2 (row i) 0))) + b (ix2 0 (col i))

/-- A vector of one entry per row, as a column. -/
def colOf {N : Nat} (v : (⟨1, ![N]⟩ : Shape).Idx → EReal) : T N 1 := fun i => v (ix1 (row i))
/-- A vector of one entry per column, as a row. -/
def rowOf {M : Nat} (b : (⟨1, ![M]⟩ : Shape).Idx → EReal) : T 1 M := fun i => b (ix1 (col i))

/-- The maximum with zero. -/
def relu {N M : Nat} (v : T N M) : T N M := fun i => max (v i) 0

/-- The maximum of a row of two entries. -/
def rowMax {N : Nat} (v : T N 2) (r : Fin N) : EReal := max (v (ix2 r 0)) (v (ix2 r 1))

/-- The log-softmax of each row of two entries. -/
def lsm {N : Nat} (v : T N 2) : T N 2 :=
  fun i => (v i - rowMax v (row i))
    - Ideal.log (Ideal.exp (v (ix2 (row i) 0) - rowMax v (row i)) + Ideal.exp (v (ix2 (row i) 1) - rowMax v (row i)))

/-- The index of a block of `n` rows starting at row `o`, inside an array of `N` rows. -/
def shift {n N M : Nat} (o : Nat) (ho : o + n ≤ N) (j : (⟨2, ![n, M]⟩ : Shape).Idx) : (⟨2, ![N, M]⟩ : Shape).Idx :=
  ix2 ⟨o + (row j).val, by have := (row j).isLt; omega⟩ (col j)

theorem row_shift {n N M : Nat} (o : Nat) (ho : o + n ≤ N) (j : (⟨2, ![n, M]⟩ : Shape).Idx) :
    (row (shift (N := N) o ho j)).val = o + (row j).val := rfl
theorem col_shift {n N M : Nat} (o : Nat) (ho : o + n ≤ N) (j : (⟨2, ![n, M]⟩ : Shape).Idx) :
    col (shift (N := N) o ho j) = col j := rfl
theorem shift_ix2 {n N M M' : Nat} (o : Nat) (ho : o + n ≤ N) (j : (⟨2, ![n, M]⟩ : Shape).Idx) (q : Fin M') :
    ix2 (row (shift (N := N) o ho j)) q = shift (N := N) o ho (ix2 (row j) q) := rfl

/-- The product read at a row-shifted index is the product of the row-shifted left factor. -/
theorem lin_shift {n N K M : Nat} (o : Nat) (ho : o + n ≤ N) (x : T N K) (w : T K M) (j : (⟨2, ![n, M]⟩ : Shape).Idx) :
    lin x w (shift o ho j) = lin (fun y => x (shift o ho y)) w j := rfl

/-- The combination read at a row-shifted index is the combination of the row-shifted inputs. -/
theorem comb_shift {n N M : Nat} (o : Nat) (ho : o + n ≤ N) (agg h : T N M) (d : T N 1) (b : T 1 M)
    (j : (⟨2, ![n, M]⟩ : Shape).Idx) :
    comb agg h d b (shift o ho j)
      = comb (fun y => agg (shift o ho y)) (fun y => h (shift o ho y)) (fun y => d (shift o ho y)) b j := by
  unfold comb
  rw [shift_ix2 o ho j (0 : Fin 1), col_shift]

/-- The same, as an equality of functions of the block's index. -/
theorem comb_shift_fun {n N M : Nat} (o : Nat) (ho : o + n ≤ N) (agg h : T N M) (d : T N 1) (b : T 1 M) :
    (fun j : (⟨2, ![n, M]⟩ : Shape).Idx => comb agg h d b (shift o ho j))
      = comb (fun y => agg (shift o ho y)) (fun y => h (shift o ho y)) (fun y => d (shift o ho y)) b :=
  funext fun j => comb_shift o ho agg h d b j

theorem relu_shift {n N M : Nat} (o : Nat) (ho : o + n ≤ N) (v : T N M) (j : (⟨2, ![n, M]⟩ : Shape).Idx) :
    relu v (shift o ho j) = relu (fun y => v (shift o ho y)) j := rfl

theorem lsm_shift {n N : Nat} (o : Nat) (ho : o + n ≤ N) (v : T N 2) (j : (⟨2, ![n, 2]⟩ : Shape).Idx) :
    lsm v (shift o ho j) = lsm (fun y => v (shift o ho y)) j := rfl

end Cert.Spec

end
-- ==== Proof.Reg0.lean ====
/-
  Region 0 (the first layer's product of the node features with the weight matrix), read as ONE function of the
  arrays the region finds: the region computes the product block of 10000 rows by block of 10000 rows, fifty blocks that
  tile the 500000 rows; block `t` of the result is the product of block `t` of the features with the whole weight
  matrix, which is block `t` of the product of the whole arrays, because a row of the product depends on the same
  row of the features only. So the result array ends holding the product of the whole arrays.
-/
import proofs.«107481_j16398185136753_2_alg».proof.Proof.Gen.KernelIdeal.Frame
import proofs.«107481_j16398185136753_2_alg».proof.Proof.Spec
import Idealize.ShloMosaic.Lib.Pipeline.Value

set_option maxRecDepth 16384

noncomputable section

namespace Cert.KernelIdeal.Reg0

open Cert.KernelIdeal Cert.KernelIdeal.Gen Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the feature window and the result window sit at block
    (t, 0), the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem tN (t : Fin cfg0.N) : t.val * 10000 + 10000 ≤ 500000 := by
  have h : t.val < 50 := lt_of_lt_of_eq t.isLt N_0
  omega

/-- The whole-array function the region computes. -/
abbrev G (c : Dev nD) : T 500000 16 := lin (N := 500000) (K := 128) (M := 16) (V c main_arg0) (V c main_arg2)

/-- What point `t` writes back is block `t` of the product of the whole arrays. -/
theorem flushed_eq (hpay : ∀ (x0 : Vec Ideal S10000x128 .f32) (x1 : Vec Ideal S128x16 .f32),
      k0_pay1 (F := Ideal) x0 x1 = lin (N := 10000) (K := 128) (M := 16) x0 x1) (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x16) hz]
  rw [hpay]
  obtain ⟨e0, e1, e2, e3, e4, e5⟩ := idx_facts t
  funext j
  have h0 : ∀ y : S10000x128.Idx, ((cfg0.win 0).blk t).view.emb y = shift (N := 500000) (t.val * 10000) (tN t) y := by
    intro y; funext a; apply Fin.ext
    match a with
    | ⟨0, _⟩ => show win0_0.index t (0 : Fin 2) * 10000 + 1 * (y 0).val = t.val * 10000 + (y 0).val; omega
    | ⟨1, _⟩ => show win0_0.index t (1 : Fin 2) * 128 + 1 * (y 1).val = (y 1).val; omega
  have h1 : ∀ y : S128x16.Idx, ((cfg0.win 1).blk t).view.emb y = y := by
    intro y; funext a; apply Fin.ext
    match a with
    | ⟨0, _⟩ => show win0_1.index t (0 : Fin 2) * 128 + 1 * (y 0).val = (y 0).val; omega
    | ⟨1, _⟩ => show win0_1.index t (1 : Fin 2) * 16 + 1 * (y 1).val = (y 1).val; omega
  have h2 : ((cfg0.win 2).blk t).view.emb j = shift (N := 500000) (t.val * 10000) (tN t) j := by
    funext a; apply Fin.ext
    match a with
    | ⟨0, _⟩ => show win0_2.index t (0 : Fin 2) * 10000 + 1 * (j 0).val = t.val * 10000 + (j 0).val; omega
    | ⟨1, _⟩ => show win0_2.index t (1 : Fin 2) * 16 + 1 * (j 1).val = (j 1).val; omega
  show lin (N := 10000) (K := 128) (M := 16) (fun y => V c main_arg0 (((cfg0.win 0).blk t).view.emb y))
      (fun y => V c main_arg2 (((cfg0.win 1).blk t).view.emb y)) j
    = lin (N := 500000) (K := 128) (M := 16) (V c main_arg0) (V c main_arg2) (((cfg0.win 2).blk t).view.emb j)
  rw [h2, lin_shift]
  simp only [h0, h1]

/-- An index of the result array is in point `t`'s block iff each coordinate is in the block's range on its axis. -/
theorem mem_blk (t : Fin cfg0.N) (i : S500000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v12).slice (win0_2.rect t)).set ↔ _
  rw [View.set_slice_whole, Rect.mem_set_unit]
  exact Iff.rfl

/-- Every row is in the block of the point `row / 10000`. -/
theorem cover (i : S500000x16.Idx) : ∃ t : Fin cfg0.N, (cfg0.win 2).flush t = true ∧ i ∈ ((cfg0.win 2).blk t).view.set := by
  have hi0 : (i 0).val < 500000 := (i 0).isLt
  have hi1 : (i 1).val < 16 := (i 1).isLt
  let t : Fin cfg0.N := ⟨(i 0).val / 10000, by rw [show cfg0.N = 50 from N_0]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The result array after the region: the product of the whole arrays. -/
theorem final (hpay : ∀ (x0 : Vec Ideal S10000x128 .f32) (x1 : Vec Ideal S128x16 .f32),
      k0_pay1 (F := Ideal) x0 x1 = lin (N := 10000) (K := 128) (M := 16) x0 x1) (c : Dev nD) :
    (dat0 (F := Ideal) V c).arrAt 2 cfg0.N = G V c :=
  (dat0 (F := Ideal) V c).arrAt_eq_of_cover 2 (G V c) (fun t _ => flushed_eq V hpay c t) cover

end Cert.KernelIdeal.Reg0

end
-- ==== Proof.Reg1.lean ====
/-
  Region 1 (the first layer's combination and its maximum with zero), read as ONE function of the arrays the region finds: the region works block of 10000 rows by block of
  10000 rows, fifty blocks that tile the 500000 rows; at block `t` it combines block `t` of the aggregate, of the layer's
  product and of the inverse-root-degree column with the whole bias row, and that is block `t` of the combination of
  the whole arrays, because a row of the combination (and of the maximum with zero after it) depends on the same row of the
  row-indexed inputs only. So the result array ends holding the maximum with zero of the combination of the whole arrays.
-/
import proofs.«107481_j16398185136753_2_alg».proof.Proof.Gen.KernelIdeal.Frame
import proofs.«107481_j16398185136753_2_alg».proof.Proof.Spec
import Idealize.ShloMosaic.Lib.Pipeline.Value

set_option maxRecDepth 16384

noncomputable section

namespace Cert.KernelIdeal.Reg1

open Cert.KernelIdeal Cert.KernelIdeal.Gen Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the aggregate, product, degree-column and result windows sit
    at block (t, 0), the bias window at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tN (t : Fin cfg1.N) : t.val * 10000 + 10000 ≤ 500000 := by
  have h : t.val < 50 := lt_of_lt_of_eq t.isLt N_1
  omega

/-- The whole-array function the region computes. -/
abbrev G (c : Dev nD) : T 500000 16 :=
  relu (comb (N := 500000) (M := 16) (V c main_v40) (V c main_v12) (V c main_v42) (V c main_v41))

/-- What point `t` writes back is block `t` of the maximum with zero of the combination of the whole arrays. -/
theorem flushed_eq (hpay : ∀ (d : Vec Ideal S10000x1 .f32) (h agg : Vec Ideal S10000x16 .f32) (b : Vec Ideal S1x16 .f32),
      k1_pay1 (F := Ideal) d h agg b = relu (comb (N := 10000) (M := 16) agg h d b)) (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S10000x1) hz, View.ld_unit_zero (S := S10000x16) hz, View.ld_unit_zero (S := S1x16) hz]
  rw [hpay]
  obtain ⟨e0, e1, e2, e3, e4, e5, e6, e7, e8, e9⟩ := idx_facts t
  funext j
  have h0 : ∀ y : S10000x16.Idx, ((cfg1.win 0).blk t).view.emb y = shift (N := 500000) (t.val * 10000) (tN t) y := by
    intro y; funext a; apply Fin.ext
    match a with
    | ⟨0, _⟩ => show win1_0.index t (0 : Fin 2) * 10000 + 1 * (y 0).val = t.val * 10000 + (y 0).val; omega
    | ⟨1, _⟩ => show win1_0.index t (1 : Fin 2) * 16 + 1 * (y 1).val = (y 1).val; omega
  have h1 : ∀ y : S10000x16.Idx, ((cfg1.win 1).blk t).view.emb y = shift (N := 500000) (t.val * 10000) (tN t) y := by
    intro y; funext a; apply Fin.ext
    match a with
    | ⟨0, _⟩ => show win1_1.index t (0 : Fin 2) * 10000 + 1 * (y 0).val = t.val * 10000 + (y 0).val; omega
    | ⟨1, _⟩ => show win1_1.index t (1 : Fin 2) * 16 + 1 * (y 1).val = (y 1).val; omega
  have h2 : ∀ y : S10000x1.Idx, ((cfg1.win 2).blk t).view.emb y = shift (N := 500000) (t.val * 10000) (tN t) y := by
    intro y; funext a; apply Fin.ext
    match a with
    | ⟨0, _⟩ => show win1_2.index t (0 : Fin 2) * 10000 + 1 * (y 0).val = t.val * 10000 + (y 0).val; omega
    | ⟨1, _⟩ => show win1_2.index t (1 : Fin 2) * 1 + 1 * (y 1).val = (y 1).val; omega
  have h3 : ∀ y : S1x16.Idx, ((cfg1.win 3).blk t).view.emb y = y := by
    intro y; funext a; apply Fin.ext
    match a with
    | ⟨0, _⟩ => show win1_3.index t (0 : Fin 2) * 1 + 1 * (y 0).val = (y 0).val; omega
    | ⟨1, _⟩ => show win1_3.index t (1 : Fin 2) * 16 + 1 * (y 1).val = (y 1).val; omega
  have h4 : ((cfg1.win 4).blk t).view.emb j = shift (N := 500000) (t.val * 10000) (tN t) j := by
    funext a; apply Fin.ext
    match a with
    | ⟨0, _⟩ => show win1_4.index t (0 : Fin 2) * 10000 + 1 * (j 0).val = t.val * 10000 + (j 0).val; omega
    | ⟨1, _⟩ => show win1_4.index t (1 : Fin 2) * 16 + 1 * (j 1).val = (j 1).val; omega
  show relu (comb (N := 10000) (M := 16) (fun y => V c main_v40 (((cfg1.win 0).blk t).view.emb y))
      (fun y => V c main_v12 (((cfg1.win 1).blk t).view.emb y)) (fun y => V c main_v42 (((cfg1.win 2).blk t).view.emb y))
      (fun y => V c main_v41 (((cfg1.win 3).blk t).view.emb y))) j
    = relu (comb (N := 500000) (M := 16) (V c main_v40) (V c main_v12) (V c main_v42) (V c main_v41)) (((cfg1.win 4).blk t).view.emb j)
  rw [h4, relu_shift, comb_shift_fun]
  simp only [h0, h1, h2, h3]

/-- An index of the result array is in point `t`'s block iff each coordinate is in the block's range on its axis. -/
theorem mem_blk (t : Fin cfg1.N) (i : S500000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_v43).slice (win1_4.rect t)).set ↔ _
  rw [View.set_slice_whole, Rect.mem_set_unit]
  exact Iff.rfl

/-- Every row is in the block of the point `row / 10000`. -/
theorem cover (i : S500000x16.Idx) : ∃ t : Fin cfg1.N, (cfg1.win 4).flush t = true ∧ i ∈ ((cfg1.win 4).blk t).view.set := by
  have hi0 : (i 0).val < 500000 := (i 0).isLt
  have hi1 : (i 1).val < 16 := (i 1).isLt
  let t : Fin cfg1.N := ⟨(i 0).val / 10000, by rw [show cfg1.N = 50 from N_1]; omega⟩
  obtain ⟨e0, e1, e2, e3, e4, e5, e6, e7, e8, e9⟩ := idx_facts t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 16 ≤ (i 1).val ∧ (i 1).val < win1_4.index t (1 : Fin 2) * 16 + 16; omega

/-- The result array after the region: the maximum with zero of the combination of the whole arrays. -/
theorem final (hpay : ∀ (d : Vec Ideal S10000x1 .f32) (h agg : Vec Ideal S10000x16 .f32) (b : Vec Ideal S1x16 .f32),
      k1_pay1 (F := Ideal) d h agg b = relu (comb (N := 10000) (M := 16) agg h d b)) (c : Dev nD) :
    (dat1 (F := Ideal) V c).arrAt 4 cfg1.N = G V c :=
  (dat1 (F := Ideal) V c).arrAt_eq_of_cover 4 (G V c) (fun t _ => flushed_eq V hpay c t) cover

end Cert.KernelIdeal.Reg1

end
-- ==== Proof.Reg2.lean ====
/-
  Region 2 (the second layer's product of the first layer's output with the second weight matrix), read as ONE function of the
  arrays the region finds: the region computes the product block of 10000 rows by block of 10000 rows, fifty blocks that
  tile the 500000 rows; block `t` of the result is the product of block `t` of the features with the whole weight
  matrix, which is block `t` of the product of the whole arrays, because a row of the product depends on the same
  row of the features only. So the result array ends holding the product of the whole arrays.
-/
import proofs.«107481_j16398185136753_2_alg».proof.Proof.Gen.KernelIdeal.Frame
import proofs.«107481_j16398185136753_2_alg».proof.Proof.Spec
import Idealize.ShloMosaic.Lib.Pipeline.Value

set_option maxRecDepth 16384

noncomputable section

namespace Cert.KernelIdeal.Reg2

open Cert.KernelIdeal Cert.KernelIdeal.Gen Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the feature window and the result window sit at block
    (t, 0), the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem tN (t : Fin cfg2.N) : t.val * 10000 + 10000 ≤ 500000 := by
  have h : t.val < 50 := lt_of_lt_of_eq t.isLt N_2
  omega

/-- The whole-array function the region computes. -/
abbrev G (c : Dev nD) : T 500000 2 := lin (N := 500000) (K := 16) (M := 2) (V c main_v43) (V c main_arg4)

/-- What point `t` writes back is block `t` of the product of the whole arrays. -/
theorem flushed_eq (hpay : ∀ (x0 : Vec Ideal S10000x16 .f32) (x1 : Vec Ideal S16x2 .f32),
      k2_pay1 (F := Ideal) x0 x1 = lin (N := 10000) (K := 16) (M := 2) x0 x1) (c : Dev nD) (t : Fin cfg2.N) :
    (dat2 (F := Ideal) V c).flushed 2 t = ((cfg2.win 2).blk t).view.read (Elt Ideal) (G V c) := by
  show (cfg2.win 2).cut (grid2.coords t) ((dat2 (F := Ideal) V c).after 2 t) = _
  rw [after2_2]
  unfold out2_2
  rw [View.canon_unit_zero hz]
  simp only [View.ld_unit_zero (S := S10000x16) hz, View.ld_unit_zero (S := S16x2) hz]
  rw [hpay]
  obtain ⟨e0, e1, e2, e3, e4, e5⟩ := idx_facts t
  funext j
  have h0 : ∀ y : S10000x16.Idx, ((cfg2.win 0).blk t).view.emb y = shift (N := 500000) (t.val * 10000) (tN t) y := by
    intro y; funext a; apply Fin.ext
    match a with
    | ⟨0, _⟩ => show win2_0.index t (0 : Fin 2) * 10000 + 1 * (y 0).val = t.val * 10000 + (y 0).val; omega
    | ⟨1, _⟩ => show win2_0.index t (1 : Fin 2) * 16 + 1 * (y 1).val = (y 1).val; omega
  have h1 : ∀ y : S16x2.Idx, ((cfg2.win 1).blk t).view.emb y = y := by
    intro y; funext a; apply Fin.ext
    match a with
    | ⟨0, _⟩ => show win2_1.index t (0 : Fin 2) * 16 + 1 * (y 0).val = (y 0).val; omega
    | ⟨1, _⟩ => show win2_1.index t (1 : Fin 2) * 2 + 1 * (y 1).val = (y 1).val; omega
  have h2 : ((cfg2.win 2).blk t).view.emb j = shift (N := 500000) (t.val * 10000) (tN t) j := by
    funext a; apply Fin.ext
    match a with
    | ⟨0, _⟩ => show win2_2.index t (0 : Fin 2) * 10000 + 1 * (j 0).val = t.val * 10000 + (j 0).val; omega
    | ⟨1, _⟩ => show win2_2.index t (1 : Fin 2) * 2 + 1 * (j 1).val = (j 1).val; omega
  show lin (N := 10000) (K := 16) (M := 2) (fun y => V c main_v43 (((cfg2.win 0).blk t).view.emb y))
      (fun y => V c main_arg4 (((cfg2.win 1).blk t).view.emb y)) j
    = lin (N := 500000) (K := 16) (M := 2) (V c main_v43) (V c main_arg4) (((cfg2.win 2).blk t).view.emb j)
  rw [h2, lin_shift]
  simp only [h0, h1]

/-- An index of the result array is in point `t`'s block iff each coordinate is in the block's range on its axis. -/
theorem mem_blk (t : Fin cfg2.N) (i : S500000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v44).slice (win2_2.rect t)).set ↔ _
  rw [View.set_slice_whole, Rect.mem_set_unit]
  exact Iff.rfl

/-- Every row is in the block of the point `row / 10000`. -/
theorem cover (i : S500000x2.Idx) : ∃ t : Fin cfg2.N, (cfg2.win 2).flush t = true ∧ i ∈ ((cfg2.win 2).blk t).view.set := by
  have hi0 : (i 0).val < 500000 := (i 0).isLt
  have hi1 : (i 1).val < 2 := (i 1).isLt
  let t : Fin cfg2.N := ⟨(i 0).val / 10000, by rw [show cfg2.N = 50 from N_2]; omega⟩
  obtain ⟨e0, e1, e2, e3, e4, e5⟩ := idx_facts t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- The result array after the region: the product of the whole arrays. -/
theorem final (hpay : ∀ (x0 : Vec Ideal S10000x16 .f32) (x1 : Vec Ideal S16x2 .f32),
      k2_pay1 (F := Ideal) x0 x1 = lin (N := 10000) (K := 16) (M := 2) x0 x1) (c : Dev nD) :
    (dat2 (F := Ideal) V c).arrAt 2 cfg2.N = G V c :=
  (dat2 (F := Ideal) V c).arrAt_eq_of_cover 2 (G V c) (fun t _ => flushed_eq V hpay c t) cover

end Cert.KernelIdeal.Reg2

end
-- ==== Proof.Reg3.lean ====
/-
  Region 3 (the second layer's combination and its row-wise log-softmax), read as ONE function of the arrays the region finds: the region works block of 10000 rows by block of
  10000 rows, fifty blocks that tile the 500000 rows; at block `t` it combines block `t` of the aggregate, of the layer's
  product and of the inverse-root-degree column with the whole bias row, and that is block `t` of the combination of
  the whole arrays, because a row of the combination (and of the log-softmax after it) depends on the same row of the
  row-indexed inputs only. So the result array ends holding the log-softmax of the combination of the whole arrays.
-/
import proofs.«107481_j16398185136753_2_alg».proof.Proof.Gen.KernelIdeal.Frame
import proofs.«107481_j16398185136753_2_alg».proof.Proof.Spec
import Idealize.ShloMosaic.Lib.Pipeline.Value

set_option maxRecDepth 16384

noncomputable section

namespace Cert.KernelIdeal.Reg3

open Cert.KernelIdeal Cert.KernelIdeal.Gen Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the aggregate, product, degree-column and result windows sit
    at block (t, 0), the bias window at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem tN (t : Fin cfg3.N) : t.val * 10000 + 10000 ≤ 500000 := by
  have h : t.val < 50 := lt_of_lt_of_eq t.isLt N_3
  omega

/-- The whole-array function the region computes. -/
abbrev G (c : Dev nD) : T 500000 2 :=
  lsm (comb (N := 500000) (M := 2) (V c main_v72) (V c main_v44) (V c main_v74) (V c main_v73))

set_option maxHeartbeats 1000000 in
/-- What point `t` writes back is block `t` of the log-softmax of the combination of the whole arrays. -/
theorem flushed_eq (hpay : ∀ (d : Vec Ideal S10000x1 .f32) (h agg : Vec Ideal S10000x2 .f32) (b : Vec Ideal S1x2 .f32),
      k3_pay1 (F := Ideal) d h agg b = lsm (comb (N := 10000) (M := 2) agg h d b)) (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz]
  simp only [View.ld_unit_zero (S := S10000x1) hz, View.ld_unit_zero (S := S10000x2) hz, View.ld_unit_zero (S := S1x2) hz]
  rw [hpay]
  obtain ⟨e0, e1, e2, e3, e4, e5, e6, e7, e8, e9⟩ := idx_facts t
  have h0 : ∀ y : S10000x2.Idx, ((cfg3.win 0).blk t).view.emb y = shift (N := 500000) (t.val * 10000) (tN t) y := by
    intro y; funext a; apply Fin.ext
    match a with
    | ⟨0, _⟩ => show win3_0.index t (0 : Fin 2) * 10000 + 1 * (y 0).val = t.val * 10000 + (y 0).val; omega
    | ⟨1, _⟩ => show win3_0.index t (1 : Fin 2) * 2 + 1 * (y 1).val = (y 1).val; omega
  have h1 : ∀ y : S10000x2.Idx, ((cfg3.win 1).blk t).view.emb y = shift (N := 500000) (t.val * 10000) (tN t) y := by
    intro y; funext a; apply Fin.ext
    match a with
    | ⟨0, _⟩ => show win3_1.index t (0 : Fin 2) * 10000 + 1 * (y 0).val = t.val * 10000 + (y 0).val; omega
    | ⟨1, _⟩ => show win3_1.index t (1 : Fin 2) * 2 + 1 * (y 1).val = (y 1).val; omega
  have h2 : ∀ y : S10000x1.Idx, ((cfg3.win 2).blk t).view.emb y = shift (N := 500000) (t.val * 10000) (tN t) y := by
    intro y; funext a; apply Fin.ext
    match a with
    | ⟨0, _⟩ => show win3_2.index t (0 : Fin 2) * 10000 + 1 * (y 0).val = t.val * 10000 + (y 0).val; omega
    | ⟨1, _⟩ => show win3_2.index t (1 : Fin 2) * 1 + 1 * (y 1).val = (y 1).val; omega
  have h3 : ∀ y : S1x2.Idx, ((cfg3.win 3).blk t).view.emb y = y := by
    intro y; funext a; apply Fin.ext
    match a with
    | ⟨0, _⟩ => show win3_3.index t (0 : Fin 2) * 1 + 1 * (y 0).val = (y 0).val; omega
    | ⟨1, _⟩ => show win3_3.index t (1 : Fin 2) * 2 + 1 * (y 1).val = (y 1).val; omega
  have b0 : iblk3 V c 0 t = fun y => V c main_v72 (shift (N := 500000) (t.val * 10000) (tN t) y) := by
    funext y; show V c main_v72 (((cfg3.win 0).blk t).view.emb y) = _; rw [h0]
  have b1 : iblk3 V c 1 t = fun y => V c main_v44 (shift (N := 500000) (t.val * 10000) (tN t) y) := by
    funext y; show V c main_v44 (((cfg3.win 1).blk t).view.emb y) = _; rw [h1]
  have b2 : iblk3 V c 2 t = fun y => V c main_v74 (shift (N := 500000) (t.val * 10000) (tN t) y) := by
    funext y; show V c main_v74 (((cfg3.win 2).blk t).view.emb y) = _; rw [h2]
  have b3 : iblk3 V c 3 t = V c main_v73 := by
    funext y; show V c main_v73 (((cfg3.win 3).blk t).view.emb y) = _; rw [h3]
  rw [b0, b1, b2, b3]
  generalize hf : lsm (comb (N := 10000) (M := 2) (fun y => V c main_v72 (shift (N := 500000) (t.val * 10000) (tN t) y))
      (fun y => V c main_v44 (shift (N := 500000) (t.val * 10000) (tN t) y))
      (fun y => V c main_v74 (shift (N := 500000) (t.val * 10000) (tN t) y)) (V c main_v73)) = f
  funext j
  have h4 : ((cfg3.win 4).blk t).view.emb j = shift (N := 500000) (t.val * 10000) (tN t) j := by
    funext a; apply Fin.ext
    match a with
    | ⟨0, _⟩ => show win3_4.index t (0 : Fin 2) * 10000 + 1 * (j 0).val = t.val * 10000 + (j 0).val; omega
    | ⟨1, _⟩ => show win3_4.index t (1 : Fin 2) * 2 + 1 * (j 1).val = (j 1).val; omega
  show f j = G V c (((cfg3.win 4).blk t).view.emb j)
  rw [h4, ← hf]
  show _ = lsm (comb (N := 500000) (M := 2) (V c main_v72) (V c main_v44) (V c main_v74) (V c main_v73)) (shift (N := 500000) (t.val * 10000) (tN t) j)
  rw [lsm_shift, comb_shift_fun]

/-- An index of the result array is in point `t`'s block iff each coordinate is in the block's range on its axis. -/
theorem mem_blk (t : Fin cfg3.N) (i : S500000x2.Idx) :
    i ∈ ((cfg3.win 4).blk t).view.set ↔ ∀ a : Fin 2, win3_4.index t a * S10000x2.size a ≤ (i a).val ∧ (i a).val < win3_4.index t a * S10000x2.size a + S10000x2.size a := by
  show i ∈ ((View.whole main_v75).slice (win3_4.rect t)).set ↔ _
  rw [View.set_slice_whole, Rect.mem_set_unit]
  exact Iff.rfl

/-- Every row is in the block of the point `row / 10000`. -/
theorem cover (i : S500000x2.Idx) : ∃ t : Fin cfg3.N, (cfg3.win 4).flush t = true ∧ i ∈ ((cfg3.win 4).blk t).view.set := by
  have hi0 : (i 0).val < 500000 := (i 0).isLt
  have hi1 : (i 1).val < 2 := (i 1).isLt
  let t : Fin cfg3.N := ⟨(i 0).val / 10000, by rw [show cfg3.N = 50 from N_3]; omega⟩
  obtain ⟨e0, e1, e2, e3, e4, e5, e6, e7, e8, e9⟩ := idx_facts t
  have ht : t.val = (i 0).val / 10000 := rfl
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 2 ≤ (i 1).val ∧ (i 1).val < win3_4.index t (1 : Fin 2) * 2 + 2; omega

/-- The result array after the region: the log-softmax of the combination of the whole arrays. -/
theorem final (hpay : ∀ (d : Vec Ideal S10000x1 .f32) (h agg : Vec Ideal S10000x2 .f32) (b : Vec Ideal S1x2 .f32),
      k3_pay1 (F := Ideal) d h agg b = lsm (comb (N := 10000) (M := 2) agg h d b)) (c : Dev nD) :
    (dat3 (F := Ideal) V c).arrAt 4 cfg3.N = G V c :=
  (dat3 (F := Ideal) V c).arrAt_eq_of_cover 4 (G V c) (fun t _ => flushed_eq V hpay c t) cover

end Cert.KernelIdeal.Reg3

end
-- ==== Proof.LibScatterSum.lean ====
/-
  A scatter whose body is the addition of a commutative monoid, as a sum: the fold over the update
  indices adds, at each element of the operand, the updates that land on it, in whatever order. Two
  corollaries: scattering the word 1 counts the updates that land on an element, and that count, made a
  float at the exact instance, is the float scatter-add of ones.
-/
import Idealize.ShloMosaic.PureOps.Ideal
import Mathlib.Algebra.BigOperators.Fin
import Mathlib.Data.BitVec

noncomputable section

open scoped BigOperators
open Idealize.ShloMosaic

namespace Cert.Lib.ScatterSum

variable {s si u : Shape} {w : Nat}

/-- A scatter with an additive body over a commutative monoid is, at each element, the operand's
    element plus the sum of the update elements whose result index is that element. -/
theorem scatter_add_eq_sum {α : Type} [AddCommMonoid α] (d : ScatterDims s si u) (x : s.Idx → α) (idx : IVec si w)
    (upd : u.Idx → α) (i : s.Idx) :
    Host.scatter d (fun a b => a + b) x idx upd i
      = x i + ∑ j ∈ Finset.univ.filter (fun j => d.resultIdx? j idx = some i), upd j := by
  -- the fold over any list of update positions: the start plus the list's sum of the updates landing on `i`
  have key : ∀ (l : List (Fin u.numel)) (y : s.Idx → α),
      (l.foldl (fun r n =>
          match d.resultIdx? (u.rowMajor.symm n) idx with
          | some i0 => fun i' => if i' = i0 then r i0 + upd (u.rowMajor.symm n) else r i'
          | none => r) y) i
        = y i + (l.map (fun n => if d.resultIdx? (u.rowMajor.symm n) idx = some i
            then upd (u.rowMajor.symm n) else 0)).sum := by
    intro l
    induction l with
    | nil => intro y; simp
    | cons n l ih =>
      intro y
      rw [List.foldl_cons, ih, List.map_cons, List.sum_cons, ← add_assoc]
      congr 1
      cases h : d.resultIdx? (u.rowMajor.symm n) idx with
      | none => simp
      | some i0 =>
        by_cases hi : i = i0
        · subst hi; simp
        · have hi' : ¬ i0 = i := fun e => hi e.symm
          simp [hi, hi']
  unfold Host.scatter
  refine (key _ _).trans ?_
  rw [← Fin.sum_univ_def, Finset.sum_filter]
  congr 1
  exact Equiv.sum_comp u.rowMajor.symm (fun j => if d.resultIdx? j idx = some i then upd j else 0)

/-- A sum of the word 1 over a finite set is the word of the set's size. -/
theorem sum_ones_bv {ι : Type} (S : Finset ι) : (∑ _j ∈ S, (1#32 : BitVec 32)) = BitVec.ofNat 32 S.card := by
  classical
  induction S using Finset.induction_on with
  | empty => rfl
  | insert a S ha ih =>
    rw [Finset.sum_insert ha, ih, Finset.card_insert_of_notMem ha, BitVec.ofNat_add, add_comm]

/-- Scattering the word 1 into zeros with an integer add counts, at each element, the updates whose
    result index is that element (fewer than 2^31 updates, so the count is the word's signed value). -/
theorem scatter_addi_ones_toInt (d : ScatterDims s si u) (idx : IVec si w) (hn : u.numel < 2 ^ 31) (i : s.Idx) :
    (Host.scatter d IntOp.addi (fun _ => (0#32 : BitVec 32)) idx (fun _ => (1#32 : BitVec 32)) i).toInt
      = ((Finset.univ.filter (fun j : u.Idx => d.resultIdx? j idx = some i)).card : Int) := by
  have h1 : Host.scatter d IntOp.addi (fun _ => (0#32 : BitVec 32)) idx (fun _ => (1#32 : BitVec 32)) i
      = 0#32 + ∑ _j ∈ Finset.univ.filter (fun j : u.Idx => d.resultIdx? j idx = some i), (1#32 : BitVec 32) :=
    scatter_add_eq_sum (α := BitVec 32) d (fun _ => 0#32) idx (fun _ => 1#32) i
  rw [h1, sum_ones_bv]
  generalize hc : (Finset.univ.filter (fun j : u.Idx => d.resultIdx? j idx = some i)).card = c
  have hle : c ≤ u.numel := by
    rw [← hc, ← u.card_idx]
    exact Finset.card_le_univ _
  have hlt : c < 2 ^ 31 := lt_of_le_of_lt hle hn
  have h0 : (0#32 : BitVec 32) + BitVec.ofNat 32 c = BitVec.ofNat 32 c := by simp
  rw [h0, BitVec.toInt_ofNat']
  apply Int.bmod_eq_of_le <;> omega

/-- At the exact instance, the count of the updates landing on each element — the integer scatter-add of
    ones into zeros — made a float is the float scatter-add of ones into zeros. -/
theorem sitofp_scatter_ones_eq_scatterAdd (d : ScatterDims s si u) (idx : IVec si w) (hn : u.numel < 2 ^ 31) :
    (sitofp (F := Ideal) .f32 (Host.scatter d IntOp.addi (fun _ => (0#32 : BitVec 32)) idx (fun _ => (1#32 : BitVec 32))) :
        FVec Ideal s .f32)
      = Host.scatterAdd (F := Ideal) d (fun _ => (0 : EReal)) idx (fun _ => (1 : EReal)) := by
  funext i
  show (((Host.scatter d IntOp.addi (fun _ => (0#32 : BitVec 32)) idx (fun _ => (1#32 : BitVec 32)) i).toInt : ℝ) : EReal)
    = Ideal.hostScatterAdd d (fun _ => (0 : EReal)) idx (fun _ => (1 : EReal)) i
  rw [scatter_addi_ones_toInt d idx hn i]
  unfold Ideal.hostScatterAdd
  rw [Finset.sum_const, zero_add, nsmul_one, Int.cast_natCast, EReal.coe_natCast]

end Cert.Lib.ScatterSum

end
-- ==== Proof.DegBridge.lean ====
/-
  The two degree histograms of a graph agree. One program counts, at each node, the edges that end there
  with an integer scatter-add of ones at the destination ids and makes the count a float; the other adds
  float ones at the destination ids passed through the wrap of negative indices (an id below zero is moved up by the
  node count). With no negative destination id the wrap is the identity, and with fewer than 2^31 edges the
  integer count is the exact count, so the two histograms — and one plus them, and its reciprocal square
  root — are equal at the exact instance.
-/
import Idealize.ShloMosaic.PureOps.Ideal
import Idealize.ShloMosaic.PureOps.Ideal.Laws
import Idealize.ShloMosaic.Lib.ValueIdx
import Idealize.ShloMosaic.Lib.IdealHost
import proofs.«107481_j16398185136753_2_alg».proof.Proof.LibScatterSum

noncomputable section

open Idealize.ShloMosaic

namespace Cert.DegBridge

/-- The shape of a scalar: rank zero. -/
abbrev S0 : Shape := ⟨0, ![]⟩

/-- A signed comparison "below zero" of a word whose signed value is not negative answers the zero bit. -/
theorem cmpi_slt_zero_of_nonneg (x : BitVec 32) (hx : 0 ≤ x.toInt) : IntOp.cmpi .slt x 0#32 = 0#1 := by
  have hlt : x.slt 0#32 = false := by
    unfold BitVec.slt
    simp only [BitVec.toInt_zero, decide_eq_false_iff_not, not_lt]
    exact hx
  unfold IntOp.cmpi
  simp only [hlt]
  rfl

/-- The wrap of negative indices leaves an index vector with no negative entry as it is. -/
theorem wrap_eq_self {sd : Shape} (hbd : S0.BroadcastsInDim sd (![] : Fin 0 → Fin sd.rank)) (k : BitVec 32)
    (dst : IVec sd 32) (hdst : ∀ i, 0 ≤ (dst i).toInt) :
    select (cmpi .slt dst (broadcastInDim sd ![] hbd (constantI S0 32 0#32)))
      (addi dst (broadcastInDim sd ![] hbd (constantI S0 32 k))) dst = dst := by
  funext i
  show Scalar.select (IntOp.cmpi .slt (dst i) 0#32) _ (dst i) = dst i
  rw [cmpi_slt_zero_of_nonneg _ (hdst i)]
  rfl

/-- The reciprocal square root of one plus the in-degree, computed from an integer count of the edges ending at
    each node made a float, equals the one computed from a float scatter-add of ones at the wrapped destination
    ids, when no destination id is negative and there are fewer than 2^31 edges. -/
theorem dinv_eq {s si u sd : Shape} {dimsI : Fin sd.rank → Fin si.rank} (d : ScatterDims s si u)
    (hbs : S0.BroadcastsInDim s (![] : Fin 0 → Fin s.rank)) (hbu : S0.BroadcastsInDim u (![] : Fin 0 → Fin u.rank))
    (hbd : S0.BroadcastsInDim sd (![] : Fin 0 → Fin sd.rank)) (hbi : sd.BroadcastsInDim si dimsI)
    (dst : IVec sd 32) (hdst : ∀ i, 0 ≤ (dst i).toInt) (hn : u.numel < 2 ^ 31) :
    (Host.rsqrt (addf (sitofp .f32 (Host.scatter d IntOp.addi (broadcastInDim s ![] hbs (constantI S0 32 0#32))
                          (broadcastInDim si dimsI hbi dst) (broadcastInDim u ![] hbu (constantI S0 32 1#32))))
                      (broadcastInDim s ![] hbs (constant S0 .f32 0x3F800000#32))) : FVec Ideal s .f32)
    = Host.rsqrt (addf (Host.scatterAdd d (broadcastInDim s ![] hbs (constant S0 .f32 0x00000000#32))
                          (broadcastInDim si dimsI hbi
                            (select (cmpi .slt dst (broadcastInDim sd ![] hbd (constantI S0 32 0#32)))
                              (addi dst (broadcastInDim sd ![] hbd (constantI S0 32 500000#32))) dst))
                          (broadcastInDim u ![] hbu (constant S0 .f32 0x3F800000#32)))
                       (broadcastInDim s ![] hbs (constant S0 .f32 0x3F800000#32))) := by
  rw [wrap_eq_self hbd _ dst hdst]
  -- a broadcast scalar constant is a constant function; the two float words are zero and one
  have e0 : (broadcastInDim s ![] hbs (constant (F := Ideal) S0 .f32 0x00000000#32)) = fun _ => (0 : EReal) :=
    funext fun _ => Ideal.ofBits_zero_f32
  have e1 : (broadcastInDim u ![] hbu (constant (F := Ideal) S0 .f32 0x3F800000#32)) = fun _ => (1 : EReal) :=
    funext fun _ => Ideal.ofBits_one_f32
  rw [e0, e1, ← Cert.Lib.ScatterSum.sitofp_scatter_ones_eq_scatterAdd d (broadcastInDim si dimsI hbi dst) hn]
  rfl

end Cert.DegBridge

end
-- ==== Proof.KValue.lean ====
/-
  The idealized kernel's boundary contents, read as the reference's stages of the argument arrays.
  The kernel program is: a stretch of host operations (the edge list's two rows, the in-degree histogram, the
  inverse root degree), the first product (region 0), a stretch (the first aggregate: gathers along the edges,
  a scatter-add at the destinations), the first combination (region 1), the second product (region 2), a stretch
  (the second aggregate), the second combination with the log-softmax (region 3). At each boundary the buffers the
  later segments read are identified, one after the other, with the stage of the reference that computes the same
  array: the two edge rows and the aggregates by the same host operations, the inverse root degree by the histogram
  lemma (an integer count of the edges into a node, made a float, is the float sum of ones over those edges, the
  node ids being non-negative), the products and combinations by the regions read as whole-array functions.
-/
import proofs.«107481_j16398185136753_2_alg».proof.Proof.Gen.KernelIdeal.Frame
import proofs.«107481_j16398185136753_2_alg».proof.Proof.RefReadP
import proofs.«107481_j16398185136753_2_alg».proof.Proof.Reg0
import proofs.«107481_j16398185136753_2_alg».proof.Proof.Reg1
import proofs.«107481_j16398185136753_2_alg».proof.Proof.Reg2
import proofs.«107481_j16398185136753_2_alg».proof.Proof.Reg3
import proofs.«107481_j16398185136753_2_alg».proof.Proof.DegBridge

set_option maxRecDepth 16384

noncomputable section

namespace Cert.KernelIdeal.KValue

open Cert.KernelIdeal Cert.KernelIdeal.Gen Cert.Spec
open Idealize.ShloMosaic Idealize.ShloMosaic.TcCoe Idealize.SL.Sem Idealize.ShloMosaic.StableHlo
open Cert.ReferenceIdeal.ReadP (val_main_v1 val_main_v3 val_main_v4 val_main_v16 val_main_v44 val_main_v53 val_main_v54 val_main_v66 val_main_v94 val_main_v103)

variable (m : (ℓ : Loc nD τ sig) → Buf (Elt Ideal) ℓ) (ρ : Dev nD → PrngReg) (c : Dev nD)

/-- A buffer that no operation of a stretch writes keeps its contents through the stretch. -/
macro "kept_through" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first stretch: the edge rows and the inverse root degree -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  kept_through hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  kept_through hostOps0

/-- The sources' row of the edge list. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The destinations' row of the edge list. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The inverse root degree: the kernel counts the edges into each node in integers and converts, the reference sums
    ones in floats at the destinations passed through the negative-index wrap; with no negative destination the two
    agree. -/
theorem W1_v11 (hdst : ∀ i, 0 ≤ ((val_main_v3 (F := Ideal) (m ((c : Thread nD τ).loc main_arg1))) i).toInt) :
    W1 m ρ c (Proc.devRef .tc main_v11) = val_main_v16 (F := Ideal) (m ((c : Thread nD τ).loc main_arg1)) := by
  show StableHlo.after hostOps0 (W0 m ρ c) (Proc.devRef .tc main_v11) = _
  after_results
  refine (Cert.DegBridge.dinv_eq scatter_S500000_S8000000x1_S8000000_n_0_0_1 bcast_S_S500000 bcast_S_S8000000 bcast_S_S8000000
    bcast_S8000000_S8000000x1_0 (val_main_v3 (F := Ideal) (m ((c : Thread nD τ).loc main_arg1))) hdst (by decide)).trans ?_
  rfl

/-! ## Region 0: the first product -/

theorem W2_v12 (hpay0 : ∀ (x0 : Vec Ideal S10000x128 .f32) (x1 : Vec Ideal S128x16 .f32),
      k0_pay1 (F := Ideal) x0 x1 = lin (N := 10000) (K := 128) (M := 16) x0 x1)
    (hlin1 : ∀ x0 x2, lin (N := 500000) (K := 128) (M := 16) x0 x2 = val_main_v4 (F := Ideal) x0 x2) :
    W2 m ρ c (Proc.devRef .tc main_v12)
      = val_main_v4 (F := Ideal) (m ((c : Thread nD τ).loc main_arg0)) (m ((c : Thread nD τ).loc main_arg2)) := by
  refine (W2_arr m ρ c 2).trans ((Reg0.final (V1 m ρ) hpay0 c).trans ?_)
  show lin (N := 500000) (K := 128) (M := 16) (W1 m ρ c (Proc.devRef .tc main_arg0)) (W1 m ρ c (Proc.devRef .tc main_arg2)) = _
  rw [W1_arg0, W1_arg2]
  exact hlin1 _ _

/-! ## What passes through region 0 and the first two stretches untouched -/

theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  kept_through hostOps0
theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  kept_through hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  kept_through hostOps0

theorem W2_v11 : W2 m ρ c (Proc.devRef .tc main_v11) = W1 m ρ c (Proc.devRef .tc main_v11) := W2_of_ne m ρ c main_v11 (by decide)
theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## The second stretch: the first aggregate, and the two reshapes -/

set_option maxHeartbeats 4000000 in
/-- The first aggregate: the same gathers along the edges and the same scatter-add at the destinations, of the same
    product and the same inverse root degree. -/
theorem W3_v40 (hdst : ∀ i, 0 ≤ ((val_main_v3 (F := Ideal) (m ((c : Thread nD τ).loc main_arg1))) i).toInt) (hpay0 : ∀ (x0 : Vec Ideal S10000x128 .f32) (x1 : Vec Ideal S128x16 .f32), k0_pay1 (F := Ideal) x0 x1 = lin (N := 10000) (K := 128) (M := 16) x0 x1) (hlin1 : ∀ x0 x2, lin (N := 500000) (K := 128) (M := 16) x0 x2 = val_main_v4 (F := Ideal) x0 x2) :
    W3 m ρ c (Proc.devRef .tc main_v40) = val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v12 m ρ c hpay0 hlin1, W2_v11 m ρ c, W2_v1 m ρ c, W2_v3 m ρ c, W1_v11 m ρ c hdst, W1_v1 m ρ c, W1_v3 m ρ c]
  rfl

/-- The inverse root degree as a column. -/
theorem W3_v42 (hdst : ∀ i, 0 ≤ ((val_main_v3 (F := Ideal) (m ((c : Thread nD τ).loc main_arg1))) i).toInt) (hcol : ∀ (v : (⟨1, ![500000]⟩ : Shape).Idx → EReal) (h : (⟨1, ![500000]⟩ : Shape).ShapeCasts ⟨2, ![500000, 1]⟩), shapeCast ⟨2, ![500000, 1]⟩ v h = colOf v) :
    W3 m ρ c (Proc.devRef .tc main_v42) = colOf (val_main_v16 (F := Ideal) (m ((c : Thread nD τ).loc main_arg1))) := by
  show StableHlo.after hostOps1 (W2 m ρ c) (Proc.devRef .tc main_v42) = _
  after_results
  rw [W2_v11 m ρ c, W1_v11 m ρ c hdst]
  exact hcol _ _

/-- The first bias as a row. -/
theorem W3_v41 (hrow16 : ∀ (b : (⟨1, ![16]⟩ : Shape).Idx → EReal) (h : (⟨1, ![16]⟩ : Shape).ShapeCasts ⟨2, ![1, 16]⟩), shapeCast ⟨2, ![1, 16]⟩ b h = rowOf b) : W3 m ρ c (Proc.devRef .tc main_v41) = rowOf (m ((c : Thread nD τ).loc main_arg3)) := by
  show StableHlo.after hostOps1 (W2 m ρ c) (Proc.devRef .tc main_v41) = _
  after_results
  rw [W2_arg3 m ρ c]
  exact hrow16 _ _

theorem W3_v12 : W3 m ρ c (Proc.devRef .tc main_v12) = W2 m ρ c (Proc.devRef .tc main_v12) := by
  show StableHlo.after hostOps1 (W2 m ρ c) (Proc.devRef .tc main_v12) = W2 m ρ c (Proc.devRef .tc main_v12)
  kept_through hostOps1
theorem W3_v11 : W3 m ρ c (Proc.devRef .tc main_v11) = W2 m ρ c (Proc.devRef .tc main_v11) := by
  show StableHlo.after hostOps1 (W2 m ρ c) (Proc.devRef .tc main_v11) = W2 m ρ c (Proc.devRef .tc main_v11)
  kept_through hostOps1
theorem W3_v1 : W3 m ρ c (Proc.devRef .tc main_v1) = W2 m ρ c (Proc.devRef .tc main_v1) := by
  show StableHlo.after hostOps1 (W2 m ρ c) (Proc.devRef .tc main_v1) = W2 m ρ c (Proc.devRef .tc main_v1)
  kept_through hostOps1
theorem W3_v3 : W3 m ρ c (Proc.devRef .tc main_v3) = W2 m ρ c (Proc.devRef .tc main_v3) := by
  show StableHlo.after hostOps1 (W2 m ρ c) (Proc.devRef .tc main_v3) = W2 m ρ c (Proc.devRef .tc main_v3)
  kept_through hostOps1
theorem W3_arg4 : W3 m ρ c (Proc.devRef .tc main_arg4) = W2 m ρ c (Proc.devRef .tc main_arg4) := by
  show StableHlo.after hostOps1 (W2 m ρ c) (Proc.devRef .tc main_arg4) = W2 m ρ c (Proc.devRef .tc main_arg4)
  kept_through hostOps1
theorem W3_arg5 : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  kept_through hostOps1

/-! ## Region 1: the first combination and its maximum with zero -/

theorem W4_v43 (hdst : ∀ i, 0 ≤ ((val_main_v3 (F := Ideal) (m ((c : Thread nD τ).loc main_arg1))) i).toInt) (hpay0 : ∀ (x0 : Vec Ideal S10000x128 .f32) (x1 : Vec Ideal S128x16 .f32), k0_pay1 (F := Ideal) x0 x1 = lin (N := 10000) (K := 128) (M := 16) x0 x1) (hlin1 : ∀ x0 x2, lin (N := 500000) (K := 128) (M := 16) x0 x2 = val_main_v4 (F := Ideal) x0 x2) (hpay1 : ∀ (d : Vec Ideal S10000x1 .f32) (h agg : Vec Ideal S10000x16 .f32) (b : Vec Ideal S1x16 .f32), k1_pay1 (F := Ideal) d h agg b = relu (comb (N := 10000) (M := 16) agg h d b)) (hcomb1 : ∀ x0 x1 x2 x3, relu (comb (val_main_v44 (F := Ideal) x0 x1 x2) (val_main_v4 (F := Ideal) x0 x2) (colOf (val_main_v16 (F := Ideal) x1)) (rowOf x3)) = val_main_v53 (F := Ideal) x0 x1 x2 x3) (hcol : ∀ (v : (⟨1, ![500000]⟩ : Shape).Idx → EReal) (h : (⟨1, ![500000]⟩ : Shape).ShapeCasts ⟨2, ![500000, 1]⟩), shapeCast ⟨2, ![500000, 1]⟩ v h = colOf v) (hrow16 : ∀ (b : (⟨1, ![16]⟩ : Shape).Idx → EReal) (h : (⟨1, ![16]⟩ : Shape).ShapeCasts ⟨2, ![1, 16]⟩), shapeCast ⟨2, ![1, 16]⟩ b h = rowOf b) :
    W4 m ρ c (Proc.devRef .tc main_v43) = val_main_v53 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Reg1.final (V3 m ρ) hpay1 c).trans ?_)
  show relu (comb (N := 500000) (M := 16) (W3 m ρ c (Proc.devRef .tc main_v40)) (W3 m ρ c (Proc.devRef .tc main_v12)) (W3 m ρ c (Proc.devRef .tc main_v42)) (W3 m ρ c (Proc.devRef .tc main_v41))) = _
  rw [W3_v40 m ρ c hdst hpay0 hlin1, W3_v12 m ρ c, W2_v12 m ρ c hpay0 hlin1, W3_v42 m ρ c hdst hcol, W3_v41 m ρ c hrow16]
  exact hcomb1 _ _ _ _

/-- What passes through regions 1 and 2. -/
theorem W5_v11 (hdst : ∀ i, 0 ≤ ((val_main_v3 (F := Ideal) (m ((c : Thread nD τ).loc main_arg1))) i).toInt) : W5 m ρ c (Proc.devRef .tc main_v11) = val_main_v16 (F := Ideal) (m ((c : Thread nD τ).loc main_arg1)) :=
  (W5_of_ne m ρ c main_v11 (by decide)).trans ((W4_of_ne m ρ c main_v11 (by decide)).trans
    ((W3_v11 m ρ c).trans ((W2_v11 m ρ c).trans (W1_v11 m ρ c hdst))))
theorem W5_v1 : W5 m ρ c (Proc.devRef .tc main_v1) = val_main_v1 (F := Ideal) (m ((c : Thread nD τ).loc main_arg1)) :=
  (W5_of_ne m ρ c main_v1 (by decide)).trans ((W4_of_ne m ρ c main_v1 (by decide)).trans
    ((W3_v1 m ρ c).trans ((W2_v1 m ρ c).trans (W1_v1 m ρ c))))
theorem W5_v3 : W5 m ρ c (Proc.devRef .tc main_v3) = val_main_v3 (F := Ideal) (m ((c : Thread nD τ).loc main_arg1)) :=
  (W5_of_ne m ρ c main_v3 (by decide)).trans ((W4_of_ne m ρ c main_v3 (by decide)).trans
    ((W3_v3 m ρ c).trans ((W2_v3 m ρ c).trans (W1_v3 m ρ c))))
theorem W4_arg4 : W4 m ρ c (Proc.devRef .tc main_arg4) = m ((c : Thread nD τ).loc main_arg4) :=
  (W4_of_ne m ρ c main_arg4 (by decide)).trans ((W3_arg4 m ρ c).trans (W2_arg4 m ρ c))
theorem W5_arg5 : W5 m ρ c (Proc.devRef .tc main_arg5) = m ((c : Thread nD τ).loc main_arg5) :=
  (W5_of_ne m ρ c main_arg5 (by decide)).trans ((W4_of_ne m ρ c main_arg5 (by decide)).trans
    ((W3_arg5 m ρ c).trans (W2_arg5 m ρ c)))

/-! ## Region 2: the second product -/

theorem W5_v44 (hdst : ∀ i, 0 ≤ ((val_main_v3 (F := Ideal) (m ((c : Thread nD τ).loc main_arg1))) i).toInt) (hpay0 : ∀ (x0 : Vec Ideal S10000x128 .f32) (x1 : Vec Ideal S128x16 .f32), k0_pay1 (F := Ideal) x0 x1 = lin (N := 10000) (K := 128) (M := 16) x0 x1) (hlin1 : ∀ x0 x2, lin (N := 500000) (K := 128) (M := 16) x0 x2 = val_main_v4 (F := Ideal) x0 x2) (hpay1 : ∀ (d : Vec Ideal S10000x1 .f32) (h agg : Vec Ideal S10000x16 .f32) (b : Vec Ideal S1x16 .f32), k1_pay1 (F := Ideal) d h agg b = relu (comb (N := 10000) (M := 16) agg h d b)) (hcomb1 : ∀ x0 x1 x2 x3, relu (comb (val_main_v44 (F := Ideal) x0 x1 x2) (val_main_v4 (F := Ideal) x0 x2) (colOf (val_main_v16 (F := Ideal) x1)) (rowOf x3)) = val_main_v53 (F := Ideal) x0 x1 x2 x3) (hcol : ∀ (v : (⟨1, ![500000]⟩ : Shape).Idx → EReal) (h : (⟨1, ![500000]⟩ : Shape).ShapeCasts ⟨2, ![500000, 1]⟩), shapeCast ⟨2, ![500000, 1]⟩ v h = colOf v) (hrow16 : ∀ (b : (⟨1, ![16]⟩ : Shape).Idx → EReal) (h : (⟨1, ![16]⟩ : Shape).ShapeCasts ⟨2, ![1, 16]⟩), shapeCast ⟨2, ![1, 16]⟩ b h = rowOf b) (hpay2 : ∀ (x0 : Vec Ideal S10000x16 .f32) (x1 : Vec Ideal S16x2 .f32), k2_pay1 (F := Ideal) x0 x1 = lin (N := 10000) (K := 16) (M := 2) x0 x1) (hlin2 : ∀ x0 x1 x2 x3 x4, lin (N := 500000) (K := 16) (M := 2) (val_main_v53 (F := Ideal) x0 x1 x2 x3) x4 = val_main_v54 (F := Ideal) x0 x1 x2 x3 x4) :
    W5 m ρ c (Proc.devRef .tc main_v44) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Reg2.final (V4 m ρ) hpay2 c).trans ?_)
  show lin (N := 500000) (K := 16) (M := 2) (W4 m ρ c (Proc.devRef .tc main_v43)) (W4 m ρ c (Proc.devRef .tc main_arg4)) = _
  rw [W4_v43 m ρ c hdst hpay0 hlin1 hpay1 hcomb1 hcol hrow16, W4_arg4 m ρ c]
  exact hlin2 _ _ _ _ _

/-! ## The third stretch: the second aggregate, and the two reshapes -/

set_option maxHeartbeats 4000000 in
/-- The second aggregate: the same gathers along the edges and the same scatter-add at the destinations, of the second
    product and the same inverse root degree. -/
theorem W6_v72 (hdst : ∀ i, 0 ≤ ((val_main_v3 (F := Ideal) (m ((c : Thread nD τ).loc main_arg1))) i).toInt) (hpay0 : ∀ (x0 : Vec Ideal S10000x128 .f32) (x1 : Vec Ideal S128x16 .f32), k0_pay1 (F := Ideal) x0 x1 = lin (N := 10000) (K := 128) (M := 16) x0 x1) (hlin1 : ∀ x0 x2, lin (N := 500000) (K := 128) (M := 16) x0 x2 = val_main_v4 (F := Ideal) x0 x2) (hpay1 : ∀ (d : Vec Ideal S10000x1 .f32) (h agg : Vec Ideal S10000x16 .f32) (b : Vec Ideal S1x16 .f32), k1_pay1 (F := Ideal) d h agg b = relu (comb (N := 10000) (M := 16) agg h d b)) (hcomb1 : ∀ x0 x1 x2 x3, relu (comb (val_main_v44 (F := Ideal) x0 x1 x2) (val_main_v4 (F := Ideal) x0 x2) (colOf (val_main_v16 (F := Ideal) x1)) (rowOf x3)) = val_main_v53 (F := Ideal) x0 x1 x2 x3) (hcol : ∀ (v : (⟨1, ![500000]⟩ : Shape).Idx → EReal) (h : (⟨1, ![500000]⟩ : Shape).ShapeCasts ⟨2, ![500000, 1]⟩), shapeCast ⟨2, ![500000, 1]⟩ v h = colOf v) (hrow16 : ∀ (b : (⟨1, ![16]⟩ : Shape).Idx → EReal) (h : (⟨1, ![16]⟩ : Shape).ShapeCasts ⟨2, ![1, 16]⟩), shapeCast ⟨2, ![1, 16]⟩ b h = rowOf b) (hpay2 : ∀ (x0 : Vec Ideal S10000x16 .f32) (x1 : Vec Ideal S16x2 .f32), k2_pay1 (F := Ideal) x0 x1 = lin (N := 10000) (K := 16) (M := 2) x0 x1) (hlin2 : ∀ x0 x1 x2 x3 x4, lin (N := 500000) (K := 16) (M := 2) (val_main_v53 (F := Ideal) x0 x1 x2 x3) x4 = val_main_v54 (F := Ideal) x0 x1 x2 x3 x4) :
    W6 m ρ c (Proc.devRef .tc main_v72) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v72) = _
  after_results_simp
  rw [W5_v44 m ρ c hdst hpay0 hlin1 hpay1 hcomb1 hcol hrow16 hpay2 hlin2, W5_v11 m ρ c hdst, W5_v1 m ρ c, W5_v3 m ρ c]
  rfl

theorem W6_v74 (hdst : ∀ i, 0 ≤ ((val_main_v3 (F := Ideal) (m ((c : Thread nD τ).loc main_arg1))) i).toInt) (hcol : ∀ (v : (⟨1, ![500000]⟩ : Shape).Idx → EReal) (h : (⟨1, ![500000]⟩ : Shape).ShapeCasts ⟨2, ![500000, 1]⟩), shapeCast ⟨2, ![500000, 1]⟩ v h = colOf v) : W6 m ρ c (Proc.devRef .tc main_v74) = colOf (val_main_v16 (F := Ideal) (m ((c : Thread nD τ).loc main_arg1))) := by
  show StableHlo.after hostOps3 (W5 m ρ c) (Proc.devRef .tc main_v74) = _
  after_results
  rw [W5_v11 m ρ c hdst]
  exact hcol _ _

theorem W6_v73 (hrow2 : ∀ (b : (⟨1, ![2]⟩ : Shape).Idx → EReal) (h : (⟨1, ![2]⟩ : Shape).ShapeCasts ⟨2, ![1, 2]⟩), shapeCast ⟨2, ![1, 2]⟩ b h = rowOf b) : W6 m ρ c (Proc.devRef .tc main_v73) = rowOf (m ((c : Thread nD τ).loc main_arg5)) := by
  show StableHlo.after hostOps3 (W5 m ρ c) (Proc.devRef .tc main_v73) = _
  after_results
  rw [W5_arg5 m ρ c]
  exact hrow2 _ _

theorem W6_v44 : W6 m ρ c (Proc.devRef .tc main_v44) = W5 m ρ c (Proc.devRef .tc main_v44) := by
  show StableHlo.after hostOps3 (W5 m ρ c) (Proc.devRef .tc main_v44) = W5 m ρ c (Proc.devRef .tc main_v44)
  kept_through hostOps3

/-! ## Region 3: the second combination and the log-softmax — the kernel's result -/

/-- The kernel's result buffer ends holding the reference's last stage of the six argument arrays. -/
theorem W7_v75 (hdst : ∀ i, 0 ≤ ((val_main_v3 (F := Ideal) (m ((c : Thread nD τ).loc main_arg1))) i).toInt) (hpay0 : ∀ (x0 : Vec Ideal S10000x128 .f32) (x1 : Vec Ideal S128x16 .f32), k0_pay1 (F := Ideal) x0 x1 = lin (N := 10000) (K := 128) (M := 16) x0 x1) (hlin1 : ∀ x0 x2, lin (N := 500000) (K := 128) (M := 16) x0 x2 = val_main_v4 (F := Ideal) x0 x2) (hpay1 : ∀ (d : Vec Ideal S10000x1 .f32) (h agg : Vec Ideal S10000x16 .f32) (b : Vec Ideal S1x16 .f32), k1_pay1 (F := Ideal) d h agg b = relu (comb (N := 10000) (M := 16) agg h d b)) (hcomb1 : ∀ x0 x1 x2 x3, relu (comb (val_main_v44 (F := Ideal) x0 x1 x2) (val_main_v4 (F := Ideal) x0 x2) (colOf (val_main_v16 (F := Ideal) x1)) (rowOf x3)) = val_main_v53 (F := Ideal) x0 x1 x2 x3) (hcol : ∀ (v : (⟨1, ![500000]⟩ : Shape).Idx → EReal) (h : (⟨1, ![500000]⟩ : Shape).ShapeCasts ⟨2, ![500000, 1]⟩), shapeCast ⟨2, ![500000, 1]⟩ v h = colOf v) (hrow16 : ∀ (b : (⟨1, ![16]⟩ : Shape).Idx → EReal) (h : (⟨1, ![16]⟩ : Shape).ShapeCasts ⟨2, ![1, 16]⟩), shapeCast ⟨2, ![1, 16]⟩ b h = rowOf b) (hrow2 : ∀ (b : (⟨1, ![2]⟩ : Shape).Idx → EReal) (h : (⟨1, ![2]⟩ : Shape).ShapeCasts ⟨2, ![1, 2]⟩), shapeCast ⟨2, ![1, 2]⟩ b h = rowOf b) (hpay2 : ∀ (x0 : Vec Ideal S10000x16 .f32) (x1 : Vec Ideal S16x2 .f32), k2_pay1 (F := Ideal) x0 x1 = lin (N := 10000) (K := 16) (M := 2) x0 x1) (hlin2 : ∀ x0 x1 x2 x3 x4, lin (N := 500000) (K := 16) (M := 2) (val_main_v53 (F := Ideal) x0 x1 x2 x3) x4 = val_main_v54 (F := Ideal) x0 x1 x2 x3 x4) (hpay3 : ∀ (d : Vec Ideal S10000x1 .f32) (h agg : Vec Ideal S10000x2 .f32) (b : Vec Ideal S1x2 .f32), k3_pay1 (F := Ideal) d h agg b = lsm (comb (N := 10000) (M := 2) agg h d b)) (hcomb2 : ∀ x0 x1 x2 x3 x4 x5, lsm (comb (val_main_v94 (F := Ideal) x0 x1 x2 x3 x4) (val_main_v54 (F := Ideal) x0 x1 x2 x3 x4) (colOf (val_main_v66 (F := Ideal) x1)) (rowOf x5)) = val_main_v103 (F := Ideal) x0 x1 x2 x3 x4 x5) (hdinv2 : ∀ x1, val_main_v66 (F := Ideal) x1 = val_main_v16 (F := Ideal) x1) :
    W7 m ρ c (Proc.devRef .tc main_v75) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((Reg3.final (V6 m ρ) hpay3 c).trans ?_)
  show lsm (comb (N := 500000) (M := 2) (W6 m ρ c (Proc.devRef .tc main_v72)) (W6 m ρ c (Proc.devRef .tc main_v44)) (W6 m ρ c (Proc.devRef .tc main_v74)) (W6 m ρ c (Proc.devRef .tc main_v73))) = _
  rw [W6_v72 m ρ c hdst hpay0 hlin1 hpay1 hcomb1 hcol hrow16 hpay2 hlin2, W6_v44 m ρ c,
    W5_v44 m ρ c hdst hpay0 hlin1 hpay1 hcomb1 hcol hrow16 hpay2 hlin2, W6_v74 m ρ c hdst hcol, W6_v73 m ρ c hrow2, ← hdinv2]
  exact hcomb2 _ _ _ _ _ _

end Cert.KernelIdeal.KValue

end
-- ==== Proof.RefRun.lean ====
/-
  The idealized reference's run: the program is a straight line of host operations, so every execution ends with
  each buffer holding the fold of the operations' results over the launch contents.
-/
import proofs.«107481_j16398185136753_2_alg».proof.Proof.RefRunP

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Every weakly fair execution of the reference terminates without a fault, and every buffer ends at the fold of the
    operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.RefRun

end
-- ==== Proof.RefFold.lean ====
/-
  What the idealized reference computes: the fold of its 144 host operations over the entry contents, read at the
  result buffer, is the last stage of the operations' composition — each operation's value as a function of its
  operands' values — applied to the six argument arrays. Both sides open to the same composed term: the left by the
  results of the operations one after the other, the right by the stages' definitions; the two reshapes' stages are
  first spelt as the operations' results are (through the result buffer's shape, at an index), and contents moved to a
  called function's typed buffer and back are the contents.
-/
import proofs.«107481_j16398185136753_2_alg».proof.Proof.RefRun
import proofs.«107481_j16398185136753_2_alg».proof.Proof.RefReadP

noncomputable section

namespace Cert.ReferenceIdeal.RefFold

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## Extra rewriting lemmas -/

section Extra
variable {Val : EltTy → Type} {T : BufTy}

/-- Contents moved to a buffer's own type and back are unchanged. -/
theorem ofBuf_toBuf (x : TRef sig T) (v : T.Contents Val) : x.ofBuf (x.toBuf v) = v := by
  obtain ⟨r, h, h2, h3⟩ := x
  subst h
  rfl
/-- Contents moved from a buffer's own type and back are unchanged. -/
theorem toBuf_ofBuf (x : TRef sig T) (v : x.ref.ty.Contents Val) : x.toBuf (x.ofBuf v) = v := by
  obtain ⟨r, h, h2, h3⟩ := x
  subst h
  rfl
/-- Where a called function's argument was written by a plain operation, its contents are read as they are. -/
theorem ofBuf_v52 (h1 h2 h3) (v : main_v52.ty.Contents Val) :
    (TRef.of (T := ⟨S500000x16, .f32⟩) main_v52 h1 h2 h3).ofBuf v = v := rfl
theorem ofBuf_v102 (h1 h2 h3) (v : main_v102.ty.Contents Val) :
    (TRef.of (T := ⟨S500000x2, .f32⟩) main_v102 h1 h2 h3).ofBuf v = v := rfl
/-- Where a called function's result is read by a plain operation, its contents are written as they are. -/
theorem toBuf_v53 (h1 h2 h3) (v : (⟨S500000x16, .f32⟩ : BufTy).Contents Val) :
    (TRef.of (T := ⟨S500000x16, .f32⟩) main_v53 h1 h2 h3).toBuf v = v := rfl
theorem toBuf_v103 (h1 h2 h3) (v : (⟨S500000x2, .f32⟩ : BufTy).Contents Val) :
    (TRef.of (T := ⟨S500000x2, .f32⟩) main_v103 h1 h2 h3).toBuf v = v := rfl

end Extra

/-- The second reshape's stage, spelt as the operation's result is: through the result buffer's shape, at an index. -/
theorem val_main_v3_eq (x1 : (⟨S2x8000000, .i32⟩ : BufTy).Contents (Elt F)) :
    val_main_v3 (F := F) x1 = fun i => shapeCast main_v3.ty.shape (val_main_v2 (F := F) x1) shapeCasts_S1x8000000_S8000000 i := rfl
/-- The first reshape's stage, likewise. -/
theorem val_main_v1_eq (x1 : (⟨S2x8000000, .i32⟩ : BufTy).Contents (Elt F)) :
    val_main_v1 (F := F) x1 = fun i => shapeCast main_v1.ty.shape (val_main_v0 (F := F) x1) shapeCasts_S1x8000000_S8000000 i := rfl

set_option maxRecDepth 65536 in
set_option maxHeartbeats 57600000 in
/-- The reference's result buffer, after its operations in order, holds the last stage's value at the arguments' contents. -/
theorem value (V : Valuation τ sig (Elt F)) :
    after (ops (F := F)) V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', val_main_v0, val_main_v1_eq, val_main_v2, val_main_v3_eq, val_main_v4, val_main_cst, val_main_v5, val_main_c, val_main_v6, val_main_v7, val_main_c_0, val_main_v8, val_main_v9, val_main_v10, val_main_v11, val_main_cst_1, val_main_v12, val_main_v13, val_main_cst_2, val_main_v14, val_main_v15, val_main_v16, val_main_c_3, val_main_v17, val_main_v18, val_main_c_4, val_main_v19, val_main_v20, val_main_v21, val_main_v22, val_main_v23, val_main_c_5, val_main_v24, val_main_v25, val_main_c_6, val_main_v26, val_main_v27, val_main_v28, val_main_v29, val_main_v30, val_main_v31, val_main_c_7, val_main_v32, val_main_v33, val_main_c_8, val_main_v34, val_main_v35, val_main_v36, val_main_v37, val_main_v38, val_main_v39, val_main_v40, val_main_v41, val_main_cst_9, val_main_v42, val_main_v43, val_main_v44, val_main_v45, val_main_v46, val_main_v47, val_main_v48, val_main_v49, val_main_v50, val_main_v51, val_main_v52, val_main_call0_cst, val_main_call0_v0, val_main_v53, val_main_v54, val_main_cst_10, val_main_v55, val_main_c_11, val_main_v56, val_main_v57, val_main_c_12, val_main_v58, val_main_v59, val_main_v60, val_main_v61, val_main_cst_13, val_main_v62, val_main_v63, val_main_cst_14, val_main_v64, val_main_v65, val_main_v66, val_main_c_15, val_main_v67, val_main_v68, val_main_c_16, val_main_v69, val_main_v70, val_main_v71, val_main_v72, val_main_v73, val_main_c_17, val_main_v74, val_main_v75, val_main_c_18, val_main_v76, val_main_v77, val_main_v78, val_main_v79, val_main_v80, val_main_v81, val_main_c_19, val_main_v82, val_main_v83, val_main_c_20, val_main_v84, val_main_v85, val_main_v86, val_main_v87, val_main_v88, val_main_v89, val_main_v90, val_main_v91, val_main_cst_21, val_main_v92, val_main_v93, val_main_v94, val_main_v95, val_main_v96, val_main_v97, val_main_v98, val_main_v99, val_main_v100, val_main_v101, val_main_v102, val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v103, ofBuf_toBuf, toBuf_ofBuf, ofBuf_v52, ofBuf_v102, toBuf_v53, toBuf_v103]

end Cert.ReferenceIdeal.RefFold

end
-- ==== Proof.RefStages.lean ====
/-
  The reference computation, read entry by entry, is the two graph-convolution layers' formulas: each stage of the
  reference — the product of the features with a weight matrix, the combination of the aggregate with the scaled
  product and the bias, the maximum with zero, the row-wise log-softmax — equals, as a function of the index, the
  corresponding plain formula on extended reals.
-/
import proofs.«107481_j16398185136753_2_alg».proof.Proof.RefReadP
import proofs.«107481_j16398185136753_2_alg».proof.Proof.Spec
import Idealize.ShloMosaic.PureOps.Ideal
import Idealize.ShloMosaic.PureOps.Ideal.Laws
import Idealize.ShloMosaic.Lib.ValueIdx
import Idealize.ShloMosaic.Lib.IdealHost

noncomputable section

namespace Cert.ReferenceIdeal.Stages

open Cert.ReferenceIdeal Cert.ReferenceIdeal.Gen Cert.ReferenceIdeal.ReadP Cert.Spec Idealize.ShloMosaic Idealize.ShloMosaic.ValueIdx

/-- The first product of the reference is the feature rows times the first weight matrix. -/
theorem lin1_eq (x0 : (⟨S500000x128, .f32⟩ : BufTy).Contents (Elt Ideal)) (x2 : (⟨S128x16, .f32⟩ : BufTy).Contents (Elt Ideal)) :
    lin (N := 500000) (K := 128) (M := 16) x0 x2 = val_main_v4 (F := Ideal) x0 x2 := by
  funext i
  rw [val_main_v4_apply]
  unfold lin
  refine Finset.sum_congr rfl fun k _ => ?_
  have el : lidx_main_v4 i k = ix2 (row i) k :=
    funext fun a => Fin.ext (by match a with | ⟨0, _⟩ => rfl | ⟨1, _⟩ => rfl)
  have er : ridx_main_v4 i k = ix2 k (col i) :=
    funext fun a => Fin.ext (by match a with | ⟨0, _⟩ => rfl | ⟨1, _⟩ => rfl)
  rw [el, er]

/-- The inverse root degree the reference computes a second time is the one it computed first: the same operations on
    the same edge list. -/
theorem dinv2_eq (x1 : (⟨S2x8000000, .i32⟩ : BufTy).Contents (Elt Ideal)) :
    val_main_v66 (F := Ideal) x1 = val_main_v16 (F := Ideal) x1 := rfl

/-- A vector of one entry per row reshaped to a one-column array is the vector as a column. -/
theorem shapeCast_col {N : Nat} (v : (⟨1, ![N]⟩ : Shape).Idx → EReal) (h : (⟨1, ![N]⟩ : Shape).ShapeCasts ⟨2, ![N, 1]⟩) :
    shapeCast ⟨2, ![N, 1]⟩ v h = colOf v := by
  funext j
  refine shapeCast_apply v h j (ix1 (row j)) ?_
  rw [Shape.rowMajor_val_one, Shape.rowMajor_val_two]
  have h1 : (j 1).val < 1 := (j 1).isLt
  show (j 0).val = (j 0).val * 1 + (j 1).val
  omega

/-- A vector of one entry per column reshaped to a one-row array is the vector as a row. -/
theorem shapeCast_row {M : Nat} (b : (⟨1, ![M]⟩ : Shape).Idx → EReal) (h : (⟨1, ![M]⟩ : Shape).ShapeCasts ⟨2, ![1, M]⟩) :
    shapeCast ⟨2, ![1, M]⟩ b h = rowOf b := by
  funext j
  refine shapeCast_apply b h j (ix1 (col j)) ?_
  rw [Shape.rowMajor_val_one, Shape.rowMajor_val_two]
  have h0 : (j 0).val < 1 := (j 0).isLt
  show (j 1).val = (j 0).val * M + (j 1).val
  have : (j 0).val = 0 := by omega
  rw [this]; omega

/-- The first layer of the reference — the aggregate plus the product scaled by the squared inverse root degree, plus
    the bias, then the maximum with zero — is the layer's formula. -/
theorem comb1_eq (x0 : (⟨S500000x128, .f32⟩ : BufTy).Contents (Elt Ideal)) (x1 : (⟨S2x8000000, .i32⟩ : BufTy).Contents (Elt Ideal))
    (x2 : (⟨S128x16, .f32⟩ : BufTy).Contents (Elt Ideal)) (x3 : (⟨S16, .f32⟩ : BufTy).Contents (Elt Ideal)) :
    relu (comb (val_main_v44 (F := Ideal) x0 x1 x2) (val_main_v4 (F := Ideal) x0 x2) (colOf (val_main_v16 (F := Ideal) x1)) (rowOf x3))
      = val_main_v53 (F := Ideal) x0 x1 x2 x3 := by
  funext i
  have e1 : idx_main_v46 (idx_main_v47 i) = ix1 (row i) :=
    funext fun a => Fin.ext (by match a with | ⟨0, _⟩ => rfl)
  have e2 : idx_main_v50 (idx_main_v51 i) = ix1 (col i) :=
    funext fun a => Fin.ext (by match a with | ⟨0, _⟩ => rfl)
  rw [val_main_v53_apply, val_main_v52_apply, val_main_v49_apply, val_main_v48_apply, val_main_v47_apply,
    val_main_v46_apply, val_main_v45_apply, val_main_v51_apply, val_main_v50_apply, val_main_call0_v0_apply,
    val_main_call0_cst_apply, e1, e2]
  simp only [Ideal.maximumf_def, Ideal.addf_def, Ideal.mulf_def, Ideal.ofBits_def, Ideal.ofBits_zero_f32]
  rfl

/-- The second product of the reference is the first layer's rows times the second weight matrix. -/
theorem lin2_eq (x0 : (⟨S500000x128, .f32⟩ : BufTy).Contents (Elt Ideal)) (x1 : (⟨S2x8000000, .i32⟩ : BufTy).Contents (Elt Ideal))
    (x2 : (⟨S128x16, .f32⟩ : BufTy).Contents (Elt Ideal)) (x3 : (⟨S16, .f32⟩ : BufTy).Contents (Elt Ideal))
    (x4 : (⟨S16x2, .f32⟩ : BufTy).Contents (Elt Ideal)) :
    lin (N := 500000) (K := 16) (M := 2) (val_main_v53 (F := Ideal) x0 x1 x2 x3) x4 = val_main_v54 (F := Ideal) x0 x1 x2 x3 x4 := by
  funext i
  rw [val_main_v54_apply]
  unfold lin
  refine Finset.sum_congr rfl fun k _ => ?_
  have el : lidx_main_v54 i k = ix2 (row i) k :=
    funext fun a => Fin.ext (by match a with | ⟨0, _⟩ => rfl | ⟨1, _⟩ => rfl)
  have er : ridx_main_v54 i k = ix2 k (col i) :=
    funext fun a => Fin.ext (by match a with | ⟨0, _⟩ => rfl | ⟨1, _⟩ => rfl)
  rw [el, er]

section SecondLayer

variable (x0 : (⟨S500000x128, .f32⟩ : BufTy).Contents (Elt Ideal)) (x1 : (⟨S2x8000000, .i32⟩ : BufTy).Contents (Elt Ideal))
  (x2 : (⟨S128x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The second layer of the reference before its log-softmax: the aggregate plus the product scaled by the squared
    inverse root degree, plus the bias. -/
theorem pre2_eq :
    comb (val_main_v94 (F := Ideal) x0 x1 x2 x3 x4) (val_main_v54 (F := Ideal) x0 x1 x2 x3 x4)
        (colOf (val_main_v66 (F := Ideal) x1)) (rowOf x5)
      = val_main_v102 (F := Ideal) x0 x1 x2 x3 x4 x5 := by
  funext i
  have e1 : idx_main_v96 (idx_main_v97 i) = ix1 (row i) :=
    funext fun a => Fin.ext (by match a with | ⟨0, _⟩ => rfl)
  have e2 : idx_main_v100 (idx_main_v101 i) = ix1 (col i) :=
    funext fun a => Fin.ext (by match a with | ⟨0, _⟩ => rfl)
  rw [val_main_v102_apply, val_main_v99_apply, val_main_v98_apply, val_main_v97_apply,
    val_main_v96_apply, val_main_v95_apply, val_main_v101_apply, val_main_v100_apply, e1, e2]
  simp only [Ideal.addf_def, Ideal.mulf_def]
  rfl

/-- The word of minus infinity is the least extended real. -/
theorem ofBits_neg_inf : Ideal.ofBits .f32 0xFF800000#32 = (⊥ : EReal) := by
  simp [Ideal.ofBits, Ideal.ieee]

/-- The maximum over two entries, started from the least element and joined with it once more, is the maximum of the two. -/
theorem fold_max_bot_fin2 (g : Fin 2 → EReal) :
    max (⊥ : EReal) ((Finset.univ : Finset (Fin 2)).fold max ⊥ g) = max (g 0) (g 1) := by
  simp only [Fin.univ_succ, Finset.fold_cons, Finset.fold_map, Finset.univ_unique, Finset.fold_singleton]
  simp

/-- The index of the reduced axis put back into a row index is (row, column). -/
theorem lift_ix2 (h : S500000x2.Reduces [1] S500000) (r : Fin 500000) (k : Fin (S500000x2.size 1)) :
    h.lift (ix1 r) k = ix2 r (⟨k.val, k.isLt⟩ : Fin 2) := by
  funext c; apply Fin.ext
  fin_cases c <;> rfl

/-- The row maximum the reference's log-softmax subtracts — the maximum-reduce over the two columns from minus infinity,
    joined with minus infinity once more, broadcast back to both columns — is the maximum of the row's two entries. -/
theorem call1_v4_eq (i : S500000x2.Idx) :
    val_main_call1_v4 (F := Ideal) x0 x1 x2 x3 x4 x5 i
      = rowMax (val_main_v102 (F := Ideal) x0 x1 x2 x3 x4 x5) (row i) := by
  have e : idx_main_call1_v3 (idx_main_call1_v4 i) = ix1 (row i) :=
    funext fun a => Fin.ext (by match a with | ⟨0, _⟩ => rfl)
  have hred : S500000x2.Reduces [1] S500000 := by decide
  rw [val_main_call1_v4_apply, val_main_call1_v3_apply, e, val_main_call1_v2_apply, val_main_call1_v1_apply,
    val_main_call1_cst_0_apply]
  unfold val_main_call1_v0
  rw [Host.reduce_eq_fold_single FloatOps.maximumf _ _ reducesTo_S500000x2_S500000_d1 hred h_S_]
  generalize val_main_v102 (F := Ideal) x0 x1 x2 x3 x4 x5 = V
  have hf : ∀ k : Fin (S500000x2.size 1), V (hred.lift (ix1 (row i)) k) = V (ix2 (row i) (⟨k.val, k.isLt⟩ : Fin 2)) :=
    fun k => congrArg V (lift_ix2 hred (row i) k)
  rw [val_main_call1_cst_apply]
  refine (congrArg (FloatOps.maximumf (F := Ideal) (φ := .f32) _) (Finset.fold_congr (fun k _ => hf k))).trans ?_
  refine Eq.trans ?_ (fold_max_bot_fin2 (fun k => V (ix2 (row i) k)))
  rw [← ofBits_neg_inf]
  rfl

/-- The shifted entry of the reference's log-softmax is the entry minus the row maximum. -/
theorem call1_v5_eq (i : S500000x2.Idx) :
    val_main_call1_v5 (F := Ideal) x0 x1 x2 x3 x4 x5 i
      = val_main_v102 (F := Ideal) x0 x1 x2 x3 x4 x5 i - rowMax (val_main_v102 (F := Ideal) x0 x1 x2 x3 x4 x5) (row i) := by
  rw [val_main_call1_v5_apply, call1_v4_eq]
  rfl

/-- The term the reference's log-softmax subtracts last is the logarithm of the sum of the exponentials of the row's two
    shifted entries. -/
theorem call1_v10_eq (i : S500000x2.Idx) :
    val_main_call1_v10 (F := Ideal) x0 x1 x2 x3 x4 x5 i
      = Ideal.log
          (Ideal.exp (val_main_v102 (F := Ideal) x0 x1 x2 x3 x4 x5 (ix2 (row i) 0)
              - rowMax (val_main_v102 (F := Ideal) x0 x1 x2 x3 x4 x5) (row i))
            + Ideal.exp (val_main_v102 (F := Ideal) x0 x1 x2 x3 x4 x5 (ix2 (row i) 1)
              - rowMax (val_main_v102 (F := Ideal) x0 x1 x2 x3 x4 x5) (row i))) := by
  have e : idx_main_call1_v8 (idx_main_call1_v10 i) = ix1 (row i) :=
    funext fun a => Fin.ext (by match a with | ⟨0, _⟩ => rfl)
  have e0 : idx_main_call1_v7 (ix1 (row i)) 0 = ix2 (row i) 0 :=
    funext fun a => Fin.ext (by match a with | ⟨0, _⟩ => rfl | ⟨1, _⟩ => rfl)
  have e1 : idx_main_call1_v7 (ix1 (row i)) 1 = ix2 (row i) 1 :=
    funext fun a => Fin.ext (by match a with | ⟨0, _⟩ => rfl | ⟨1, _⟩ => rfl)
  rw [val_main_call1_v10_apply, val_main_call1_v9_apply, val_main_call1_v8_apply, e, val_main_call1_v7_apply,
    val_main_call1_cst_1_apply, Fin.sum_univ_two, e0, e1, val_main_call1_v6_apply, val_main_call1_v6_apply,
    call1_v5_eq, call1_v5_eq]
  rw [Ideal.ofBits_def, Ideal.ofBits_zero_f32, zero_add]
  rw [row_ix2, row_ix2, Ideal.hostUnary_log_def, Ideal.hostUnary_exp_def, Ideal.hostUnary_exp_def]

/-- The second layer of the reference — the combination, then the row-wise log-softmax — is the layer's formula. -/
theorem comb2_eq :
    lsm (comb (val_main_v94 (F := Ideal) x0 x1 x2 x3 x4) (val_main_v54 (F := Ideal) x0 x1 x2 x3 x4)
        (colOf (val_main_v66 (F := Ideal) x1)) (rowOf x5))
      = val_main_v103 (F := Ideal) x0 x1 x2 x3 x4 x5 := by
  rw [pre2_eq]
  funext i
  rw [val_main_v103_apply, call1_v5_eq, call1_v10_eq]
  rfl

end SecondLayer

end Cert.ReferenceIdeal.Stages

end
-- ==== Proof.Payloads.lean ====
/-
  The arithmetic of the four kernel bodies, read on extended reals, is the specification's formulas: the two products
  are "rows times a weight matrix", the first combination is the aggregate plus the scaled own features plus the bias,
  cut off below at zero, and the second is the same sum followed by the row-wise log-softmax over two columns.
-/
import proofs.«107481_j16398185136753_2_alg».proof.Proof.Gen.KernelIdeal.Skeleton
import proofs.«107481_j16398185136753_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx Idealize.SL.Sem

/-! ## The two products

A product's operand indices at output index (r, c) and contraction index k are (r, k) and (k, c). -/

/-- The left operand's row is the output's row (first product). -/
theorem lhsA_0 (i : S10000x16.Idx) (k : dot_S10000x128_S128x16_S10000x16_1_0_0_1_n_n.contr.Idx) :
    (dot_S10000x128_S128x16_S10000x16_1_0_0_1_n_n.lhsIdx i k 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
/-- The left operand's column is the contraction index (first product). -/
theorem lhsA_1 (i : S10000x16.Idx) (k : dot_S10000x128_S128x16_S10000x16_1_0_0_1_n_n.contr.Idx) :
    (dot_S10000x128_S128x16_S10000x16_1_0_0_1_n_n.lhsIdx i k 1).val = (k ⟨0, by decide⟩).val :=
  dot_S10000x128_S128x16_S10000x16_1_0_0_1_n_n.lhsIdx_val_of_single rfl i k
/-- The right operand's row is the contraction index (first product). -/
theorem rhsA_0 (i : S10000x16.Idx) (k : dot_S10000x128_S128x16_S10000x16_1_0_0_1_n_n.contr.Idx) :
    (dot_S10000x128_S128x16_S10000x16_1_0_0_1_n_n.rhsIdx i k 0).val = (k ⟨0, by decide⟩).val :=
  dot_S10000x128_S128x16_S10000x16_1_0_0_1_n_n.rhsIdx_val_of_single rfl i k
/-- The right operand's column is the output's column (first product). -/
theorem rhsA_1 (i : S10000x16.Idx) (k : dot_S10000x128_S128x16_S10000x16_1_0_0_1_n_n.contr.Idx) :
    (dot_S10000x128_S128x16_S10000x16_1_0_0_1_n_n.rhsIdx i k 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The first kernel's body is the product of the feature rows with the first weight matrix: rounding to the narrower
    format is the identity on extended reals, and the accumulation into a zero array is the plain sum over the
    contraction index. -/
theorem pay0 (x0 : Vec Ideal S10000x128 .f32) (x1 : Vec Ideal S128x16 .f32) :
    Gen.k0_pay1 (F := Ideal) x0 x1 = Cert.Spec.lin (N := 10000) (K := 128) (M := 16) x0 x1 := by
  funext j
  obtain ⟨p, q, rfl⟩ : ∃ (p : Fin 10000) (q : Fin 16), j = ix2 p q := ⟨j 0, j 1, eq_ix2 j⟩
  unfold Gen.k0_pay1
  simp only [matmul]
  rw [Ideal.matmul_constant_zero_apply,
    ← Equiv.sum_comp (contrEquiv1 dot_S10000x128_S128x16_S10000x16_1_0_0_1_n_n 128 rfl rfl).symm]
  unfold Cert.Spec.lin
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q)
      ((contrEquiv1 dot_S10000x128_S128x16_S10000x16_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S10000x128_S128x16_S10000x16_1_0_0_1_n_n.rhsIdx (ix2 p q)
      ((contrEquiv1 dot_S10000x128_S128x16_S10000x16_1_0_0_1_n_n 128 rfl rfl).symm k) = ix2 k q :=
    funext fun a => Fin.ext (by
      match a with
      | ⟨0, _⟩ => exact (rhsA_0 _ _).trans hk
      | ⟨1, _⟩ => exact rhsA_1 _ _)
  exact congrArg₂ (· * ·) (congrArg x0 el) (congrArg x1 er)

/-- The left operand's row is the output's row (second product). -/
theorem lhsB_0 (i : S10000x2.Idx) (k : dot_S10000x16_S16x2_S10000x2_1_0_0_1_n_n.contr.Idx) :
    (dot_S10000x16_S16x2_S10000x2_1_0_0_1_n_n.lhsIdx i k 0).val = (i 0).val := by
  unfold DotDims.lhsIdx
  rw [dif_neg (show ¬(0 : Fin S10000x16.rank) ∈ dot_S10000x16_S16x2_S10000x2_1_0_0_1_n_n.lhsBatch by decide),
    dif_pos (show (0 : Fin S10000x16.rank) ∈ dot_S10000x16_S16x2_S10000x2_1_0_0_1_n_n.lhsNonContracting by decide)]
  rfl
/-- The left operand's column is the contraction index (second product). -/
theorem lhsB_1 (i : S10000x2.Idx) (k : dot_S10000x16_S16x2_S10000x2_1_0_0_1_n_n.contr.Idx) :
    (dot_S10000x16_S16x2_S10000x2_1_0_0_1_n_n.lhsIdx i k 1).val = (k ⟨0, by decide⟩).val :=
  dot_S10000x16_S16x2_S10000x2_1_0_0_1_n_n.lhsIdx_val_of_single rfl i k
/-- The right operand's row is the contraction index (second product). -/
theorem rhsB_0 (i : S10000x2.Idx) (k : dot_S10000x16_S16x2_S10000x2_1_0_0_1_n_n.contr.Idx) :
    (dot_S10000x16_S16x2_S10000x2_1_0_0_1_n_n.rhsIdx i k 0).val = (k ⟨0, by decide⟩).val :=
  dot_S10000x16_S16x2_S10000x2_1_0_0_1_n_n.rhsIdx_val_of_single rfl i k
/-- The right operand's column is the output's column (second product). -/
theorem rhsB_1 (i : S10000x2.Idx) (k : dot_S10000x16_S16x2_S10000x2_1_0_0_1_n_n.contr.Idx) :
    (dot_S10000x16_S16x2_S10000x2_1_0_0_1_n_n.rhsIdx i k 1).val = (i 1).val := by
  unfold DotDims.rhsIdx
  rw [dif_neg (show ¬(1 : Fin S16x2.rank) ∈ dot_S10000x16_S16x2_S10000x2_1_0_0_1_n_n.rhsBatch by decide),
    dif_pos (show (1 : Fin S16x2.rank) ∈ dot_S10000x16_S16x2_S10000x2_1_0_0_1_n_n.rhsNonContracting by decide)]
  rfl

/-- The third kernel's body is the product of the hidden rows with the second weight matrix: the cast to the same
    shape and the rounding to the narrower format are identities, and the accumulation into a zero array is the plain
    sum over the contraction index. -/
theorem pay2 (x0 : Vec Ideal S10000x16 .f32) (x1 : Vec Ideal S16x2 .f32) :
    Gen.k2_pay1 (F := Ideal) x0 x1 = Cert.Spec.lin (N := 10000) (K := 16) (M := 2) x0 x1 := by
  funext j
  obtain ⟨p, q, rfl⟩ : ∃ (p : Fin 10000) (q : Fin 2), j = ix2 p q := ⟨j 0, j 1, eq_ix2 j⟩
  unfold Gen.k2_pay1
  simp only [matmul]
  rw [Ideal.matmul_constant_zero_apply,
    ← Equiv.sum_comp (contrEquiv1 dot_S10000x16_S16x2_S10000x2_1_0_0_1_n_n 16 rfl rfl).symm]
  unfold Cert.Spec.lin
  refine Finset.sum_congr rfl fun k _ => ?_
  have hk := contrEquiv1_symm_val dot_S10000x16_S16x2_S10000x2_1_0_0_1_n_n 16 rfl rfl k
  have el : dot_S10000x16_S16x2_S10000x2_1_0_0_1_n_n.lhsIdx (ix2 p q)
      ((contrEquiv1 dot_S10000x16_S16x2_S10000x2_1_0_0_1_n_n 16 rfl rfl).symm k) = ix2 p k :=
    funext fun a => Fin.ext (by
      match a with
      | ⟨0, _⟩ => exact lhsB_0 _ _
      | ⟨1, _⟩ => exact (lhsB_1 _ _).trans hk)
  have er : dot_S10000x16_S16x2_S10000x2_1_0_0_1_n_n.rhsIdx (ix2 p q)
      ((contrEquiv1 dot_S10000x16_S16x2_S10000x2_1_0_0_1_n_n 16 rfl rfl).symm k) = ix2 k q :=
    funext fun a => Fin.ext (by
      match a with
      | ⟨0, _⟩ => exact (rhsB_0 _ _).trans hk
      | ⟨1, _⟩ => exact rhsB_1 _ _)
  have ec : shapeCast S10000x16 x0 shapeCasts_S10000x16_S10000x16 = x0 := shapeCast_self x0 _
  refine congrArg₂ (· * ·) ?_ (congrArg x1 er)
  show shapeCast S10000x16 x0 shapeCasts_S10000x16_S10000x16 _ = x0 _
  rw [ec, el]
  rfl

/-! ## The two combinations -/

section Layout
variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The second kernel's body is the combination cut off below at zero: the casts to the same shape are identities,
    the squared column and the bias row are broadcast along the other axis, and the zero constant is the real zero. -/
theorem pay1 (d : Vec Ideal S10000x1 .f32) (h agg : Vec Ideal S10000x16 .f32) (b : Vec Ideal S1x16 .f32) :
    Gen.k1_pay1 (F := Ideal) d h agg b = Cert.Spec.relu (Cert.Spec.comb agg h d b) := by
  funext j
  obtain ⟨p, q, rfl⟩ : ∃ (p : Fin 10000) (q : Fin 16), j = ix2 p q := ⟨j 0, j 1, eq_ix2 j⟩
  unfold Gen.k1_pay1
  rw [shapeCast_self d, shapeCast_self h, shapeCast_self agg, shapeCast_self b]
  rw [maximumf_apply, addf_apply, addf_apply, mulf_apply, broadcast_apply,
    broadcastTo_a1_ab_apply, broadcastTo_1b_ab_apply, mulf_apply]
  unfold Cert.Spec.relu Cert.Spec.comb
  rw [Cert.Spec.row_ix2, Cert.Spec.col_ix2]
  show max _ (Ideal.ofBits .f32 0x00000000#32) = max _ 0
  rw [Ideal.ofBits_zero_f32]

/-! ### The row maximum and the row sum over two lanes -/

/-- The word of minus infinity is the least extended real. -/
theorem ofBits_negInf_f32 : Ideal.ofBits .f32 0xFF800000#32 = ⊥ := by simp [Ideal.ofBits, Ideal.ieee]

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- An exponential at an index is the exponential of the element. -/
theorem exp_apply {s : Shape} {φ : FTy} (a : FVec Ideal s φ) (i : s.Idx) : Idealize.ShloMosaic.exp a i = Ideal.exp (a i) := rfl
/-- A logarithm at an index is the logarithm of the element. -/
theorem log_apply {s : Shape} {φ : FTy} (a : FVec Ideal s φ) (i : s.Idx) : Idealize.ShloMosaic.log a i = Ideal.log (a i) := rfl

/-- The index over row `p` whose lane is `k` is `(p, k)`. -/
theorem lift_row (p : Fin 10000) (k : Fin 2) : reduces_S10000x2_S10000.lift (ix1 p) k = ix2 p k :=
  funext fun a => Fin.ext (by
    match a with
    | ⟨0, _⟩ => rfl
    | ⟨1, _⟩ => rfl)

/-- The two lanes. -/
theorem univ_fin2 : (Finset.univ : Finset (Fin 2)) = {0, 1} := by decide

/-- A fold of the maximum over two lanes, started from the least element, is the larger of the two. -/
theorem fold_max_fin2 (f : Fin 2 → EReal) : (Finset.univ : Finset (Fin 2)).fold max ⊥ f = max (f 0) (f 1) := by
  rw [univ_fin2, Finset.fold_insert (by decide), Finset.fold_singleton, max_bot_right]

/-- The maximum over the two lanes of a row, started from minus infinity, is the larger of the row's two entries. -/
theorem rowMax_read (c : FVec Ideal S10000x2 .f32) (p : Fin 10000) (hφ : FTy.f32 = FTy.f32 ∨ FTy.f32 = FTy.bf16)
    (hacc : (0xFF800000#32 : BitVec 32) = 0xFF800000#32) :
    multiReduction (F := Ideal) .maximumf [1] S10000 c 0xFF800000#32 reduces_S10000x2_S10000 hφ hacc (ix1 p)
      = max (c (ix2 p 0)) (c (ix2 p 1)) := by
  refine (Ideal.multiReduction_maximumf_single c _ reduces_S10000x2_S10000 hφ hacc (ix1 p)).trans ?_
  refine Eq.trans (?_ : _ = (Finset.univ : Finset (Fin 2)).fold max ⊥ (fun k : Fin 2 => c (ix2 p k))) (fold_max_fin2 _)
  exact congrArg₂ (fun (b : EReal) (f : Fin 2 → EReal) => (Finset.univ : Finset (Fin 2)).fold max b f)
    ofBits_negInf_f32 (funext fun k => congrArg c (lift_row p k))

/-- The sum over the two lanes of a row is the sum of the row's two entries. -/
theorem rowSum_read (v : FVec Ideal S10000x2 .f32) (p : Fin 10000) (hφ : FTy.f32 = FTy.f32 ∨ FTy.f32 = FTy.bf16)
    (hacc : (0x00000000#32 : BitVec 32) = 0x00000000#32) :
    multiReduction (F := Ideal) .add [1] S10000 v 0x00000000#32 reduces_S10000x2_S10000 hφ hacc (ix1 p)
      = v (ix2 p 0) + v (ix2 p 1) := by
  refine (Ideal.multiReduction_add_single v _ reduces_S10000x2_S10000 hφ hacc (ix1 p)).trans ?_
  show ∑ k : Fin 2, v (reduces_S10000x2_S10000.lift (ix1 p) k) = _
  rw [Fin.sum_univ_two, lift_row, lift_row]

/-- The sum the fourth kernel forms before its softmax is the combination, as arrays. -/
theorem comb2_eq (d : FVec Ideal S10000x1 .f32) (h agg : FVec Ideal S10000x2 .f32) (b : FVec Ideal S1x2 .f32) :
    addf (addf agg (mulf h (broadcastTo S10000x2 (mulf d d) broadcasts_S10000x1_S10000x2)))
      (broadcastTo S10000x2 b broadcasts_S1x2_S10000x2) = Cert.Spec.comb agg h d b := by
  funext j
  obtain ⟨p, q, rfl⟩ : ∃ (p : Fin 10000) (q : Fin 2), j = ix2 p q := ⟨j 0, j 1, eq_ix2 j⟩
  rw [addf_apply, addf_apply, mulf_apply, broadcastTo_a1_ab_apply, broadcastTo_1b_ab_apply, mulf_apply]
  rfl

/-- The fourth kernel's body is the row-wise log-softmax of the combination: the row maximum and the row sum are taken
    over the two lanes, reshaped to a column and broadcast back along the row. -/
theorem pay3 (d : Vec Ideal S10000x1 .f32) (h agg : Vec Ideal S10000x2 .f32) (b : Vec Ideal S1x2 .f32) :
    Gen.k3_pay1 (F := Ideal) d h agg b = Cert.Spec.lsm (Cert.Spec.comb agg h d b) := by
  funext j
  obtain ⟨p, q, rfl⟩ : ∃ (p : Fin 10000) (q : Fin 2), j = ix2 p q := ⟨j 0, j 1, eq_ix2 j⟩
  unfold Gen.k3_pay1
  rw [shapeCast_self d, shapeCast_self h, shapeCast_self agg, shapeCast_self b, comb2_eq d h agg b]
  generalize Cert.Spec.comb agg h d b = c
  simp only [subf_apply, log_apply, broadcastTo_a1_ab_apply, shapeCast_a_a1_apply]
  rw [rowSum_read _ p]
  simp only [exp_apply, subf_apply, broadcastTo_a1_ab_apply, shapeCast_a_a1_apply]
  rw [rowMax_read c p]
  rfl

end Cert.KernelIdeal.Payloads

end
-- ==== Proof.EdgeRange.lean ====
/-
  The precondition read back pointwise. The precondition's last conjunct is an "all" over the edge list of the test
  "0 ≤ entry and entry < 500000" (signed); when the precondition's value is 1, every entry of the edge list therefore
  lies in [0, 500000) read as a signed integer. On a vector whose entries are all nonnegative, the negative-index wrap
  "if entry < 0 then entry + n else entry" returns the vector unchanged.
-/
import proofs.«107481_j16398185136753_2_alg».proof.Pre_finite_inputs
import Idealize.ShloMosaic.PureOps.Ideal
import Idealize.ShloMosaic.Lib.ReduceAll
import Idealize.ShloMosaic.Lib.ValueIdx

noncomputable section

namespace Cert.EdgeRange

open Idealize.ShloMosaic

/-- The word 0 reads as the integer 0. -/
theorem toInt_zero32 : (0#32 : BitVec 32).toInt = 0 := by decide

/-- The word 500000 reads as the integer 500000. -/
theorem toInt_500000 : (500000#32 : BitVec 32).toInt = 500000 := by decide

/-- If the precondition's value is 1, every entry of the edge list, read signed, lies in [0, 500000): the last conjunct
    is a conjunction over all entries of "0 ≤ entry" and "entry < 500000", and a conjunction that is 1 has every
    conjunct 1. -/
theorem range_of_pre {F : FTy → Type} [FloatOps F] [Cert.Pre_finite_inputs.Facts]
    (x0 : FVec F Cert.Pre_finite_inputs.S500000x128 .f32) (x1 : IVec Cert.Pre_finite_inputs.S2x8000000 32) (x2 : FVec F Cert.Pre_finite_inputs.S128x16 .f32)
    (x3 : FVec F Cert.Pre_finite_inputs.S16 .f32) (x4 : FVec F Cert.Pre_finite_inputs.S16x2 .f32) (x5 : FVec F Cert.Pre_finite_inputs.S2 .f32)
    (h : Cert.Pre_finite_inputs.fn (F := F) x0 x1 x2 x3 x4 x5 = fun _ => 1#1) :
    ∀ i : Cert.Pre_finite_inputs.S2x8000000.Idx, 0 ≤ (x1 i).toInt ∧ (x1 i).toInt < 500000 := by
  intro i
  -- the scalar shape has one index
  haveI : Subsingleton Cert.Pre_finite_inputs.S_.Idx := ⟨fun a b => funext fun d => d.elim0⟩
  -- the precondition at its one index, with its chain of operations in view
  have e := congrFun h ValueIdx.ix0
  dsimp only [Cert.Pre_finite_inputs.fn, Cert.Pre_finite_inputs.fn_part1] at e
  -- the outermost conjunction: keep its right component, the "all" over the edge list
  have eAll := (IntOp.andi_eq_one.1 e).2
  -- an "all" that is 1 is 1 at every entry
  have ei := Host.reduce_andi_all _ _ _ _ _ eAll i
  -- the entry's test is itself a conjunction of the two comparisons
  obtain ⟨hge, hlt⟩ := IntOp.andi_eq_one.1 ei
  have h0 := IntOp.cmpi_sge.1 hge
  have h5 := IntOp.cmpi_slt.1 hlt
  -- a broadcast constant is that constant at every index
  change (0#32 : BitVec 32).toInt ≤ (x1 i).toInt at h0
  change (x1 i).toInt < (500000#32 : BitVec 32).toInt at h5
  rw [toInt_zero32] at h0
  rw [toInt_500000] at h5
  exact ⟨h0, h5⟩

/-- On a vector of nonnegative entries the wrap "entry + n where entry < 0, else entry" is the identity: no entry is
    below 0, so the selection takes the entry itself everywhere. -/
theorem wrap_eq_self {s : Shape} (x z n : IVec s 32) (hz : ∀ i, z i = 0#32) (hx : ∀ i, 0 ≤ (x i).toInt) :
    select (cmpi .slt x z) (addi x n) x = x := by
  funext i
  show Scalar.select (IntOp.cmpi .slt (x i) (z i)) (IntOp.addi (x i) (n i)) (x i) = x i
  have hc : ¬ IntOp.cmpi .slt (x i) (z i) = 1#1 := by
    rw [IntOp.cmpi_slt, hz i, toInt_zero32]
    exact not_lt.2 (hx i)
  exact if_neg hc

end Cert.EdgeRange

end
-- ==== Proof.Claims.lean ====
/-
  The five claims. The two kernel programs' frames are the generated frame certificates; the reference's frame is its
  run with the result dropped (no operation writes an argument). The idealization rewrote nothing, so `preserves` is
  trivial. For `algebraic`: the idealized kernel's run ends with its result buffer at the last boundary's contents, and
  that is the reference's last stage of the six argument arrays — the two products, the two aggregates, the inverse root
  degree, the two combinations, each identified with the stage that computes the same array; the reference's run ends
  with its result buffer at the same stage of its own arguments, which agree with the kernel's. The one place where the
  two programs differ as formulas is the in-degree: an integer count against a float sum over wrapped destinations;
  the precondition's last conjunct says every node id of the edge list is in [0, 500000), so no destination is negative,
  the wrap is the identity, and (fewer than 2^31 edges) the count cannot overflow.
-/
import proofs.«107481_j16398185136753_2_alg».proof.Defs
import proofs.«107481_j16398185136753_2_alg».proof.Proof.Gen.Kernel.Frame
import proofs.«107481_j16398185136753_2_alg».proof.Proof.Gen.KernelIdeal.Frame
import proofs.«107481_j16398185136753_2_alg».proof.Proof.Gen.ReferenceIdeal
import proofs.«107481_j16398185136753_2_alg».proof.Proof.Gen.Pre_finite_inputs
import proofs.«107481_j16398185136753_2_alg».proof.Proof.KRun
import proofs.«107481_j16398185136753_2_alg».proof.Proof.KValue
import proofs.«107481_j16398185136753_2_alg».proof.Proof.RefRun
import proofs.«107481_j16398185136753_2_alg».proof.Proof.RefFold
import proofs.«107481_j16398185136753_2_alg».proof.Proof.RefStages
import proofs.«107481_j16398185136753_2_alg».proof.Proof.Payloads
import proofs.«107481_j16398185136753_2_alg».proof.Proof.EdgeRange

set_option maxRecDepth 16384

noncomputable section

namespace Cert.Proof.Claims

open Idealize.ShloMosaic Idealize.ShloMosaic.TcCoe Idealize.SL.Sem Idealize.ShloMosaic.StableHlo

theorem frame_p : Cert.frame_Kernel := fun m ρ _ => Cert.Kernel.Gen.frame m ρ
theorem frame_pi : Cert.frame_KernelIdeal := fun m ρ _ => Cert.KernelIdeal.Gen.frame m ρ

set_option maxHeartbeats 4000000 in
/-- The reference's argument arrays end unchanged: no host operation writes one. -/
theorem frame_ri : Cert.frame_ReferenceIdeal := fun m ρ _ =>
  (θ_run Cert.ReferenceIdeal.defs _ _).mono (fun _ h c =>
    ⟨(h c Cert.ReferenceIdeal.main_arg0).trans (by after_results_simp <;> rfl),
     (h c Cert.ReferenceIdeal.main_arg1).trans (by after_results_simp <;> rfl),
     (h c Cert.ReferenceIdeal.main_arg2).trans (by after_results_simp <;> rfl),
     (h c Cert.ReferenceIdeal.main_arg3).trans (by after_results_simp <;> rfl),
     (h c Cert.ReferenceIdeal.main_arg4).trans (by after_results_simp <;> rfl),
     (h c Cert.ReferenceIdeal.main_arg5).trans (by after_results_simp <;> rfl)⟩)
    (Cert.ReferenceIdeal.RefRun.run_after (F := Ideal) m ρ)

theorem preserves : Cert.preserves_Kernel_KernelIdeal := trivial

/-- No destination of the edge list is negative: the precondition bounds every node id below by zero. -/
theorem dst_nonneg (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, 0 ≤ ((Cert.ReferenceIdeal.ReadP.val_main_v3 (F := Ideal) (m ((c.tc : Thread Cert.KernelIdeal.nD Cert.KernelIdeal.τ).loc Cert.KernelIdeal.main_arg1))) i).toInt := by
  intro i
  rw [Cert.ReferenceIdeal.ReadP.val_main_v3_apply, Cert.ReferenceIdeal.ReadP.val_main_v2_apply]
  exact (Cert.EdgeRange.range_of_pre (F := Ideal) _ _ _ _ _ _ (hpre c) _).1

set_option maxHeartbeats 4000000 in
theorem algebraic : Cert.algebraic_KernelIdeal_ReferenceIdeal := by
  intro m ρ m' ρ' hpre hagree
  refine ⟨fun c => Cert.ReferenceIdeal.ReadP.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.KRun.run_value (F := Ideal) m ρ)
    exact Cert.KernelIdeal.KValue.W7_v75 m ρ c (dst_nonneg m hpre c) Cert.KernelIdeal.Payloads.pay0
      Cert.ReferenceIdeal.Stages.lin1_eq Cert.KernelIdeal.Payloads.pay1 Cert.ReferenceIdeal.Stages.comb1_eq
      (fun v h => Cert.ReferenceIdeal.Stages.shapeCast_col v h) (fun b h => Cert.ReferenceIdeal.Stages.shapeCast_row b h)
      (fun b h => Cert.ReferenceIdeal.Stages.shapeCast_row b h) Cert.KernelIdeal.Payloads.pay2 Cert.ReferenceIdeal.Stages.lin2_eq
      Cert.KernelIdeal.Payloads.pay3 Cert.ReferenceIdeal.Stages.comb2_eq Cert.ReferenceIdeal.Stages.dinv2_eq
  · refine (θ_run Cert.ReferenceIdeal.defs _ _).mono (fun r h c => ⟨((h c Cert.ReferenceIdeal.main_v103).trans (Cert.ReferenceIdeal.RefFold.value _)).trans ?_,
      (h c Cert.ReferenceIdeal.main_arg0).trans (by after_results_simp <;> rfl),
      (h c Cert.ReferenceIdeal.main_arg1).trans (by after_results_simp <;> rfl),
      (h c Cert.ReferenceIdeal.main_arg2).trans (by after_results_simp <;> rfl),
      (h c Cert.ReferenceIdeal.main_arg3).trans (by after_results_simp <;> rfl),
      (h c Cert.ReferenceIdeal.main_arg4).trans (by after_results_simp <;> rfl),
      (h c Cert.ReferenceIdeal.main_arg5).trans (by after_results_simp <;> rfl)⟩)
      (Cert.ReferenceIdeal.RefRun.run_after (F := Ideal) m' ρ')
    show Cert.ReferenceIdeal.ReadP.val_main_v103 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

end Cert.Proof.Claims

end
-- ==== Proof.lean ====
/-
  Two graph-convolution layers on a fixed graph of 500000 nodes and 8000000 edges, the kernel against the reference.
  Both compute, per layer, h = (features) · (weights); the aggregate over the edges into each node of
  h[source] · d[source] · d[destination]; then aggregate + h · d² + bias, followed by the maximum with zero (first layer) or
  the row-wise log-softmax over the two output columns (second layer), where d is the inverse square root of
  (in-degree + 1). The kernel computes the two products and the two combinations block of 10000 rows by block of 10000
  rows; at the ideal instance (exact extended reals, format changes the identity) a product or a combination computed
  block by block is the product or combination of the whole arrays, since every row of the result depends on the same row
  of the row-indexed inputs only. The aggregates are the same host operations in both programs. The in-degree is an
  integer histogram converted to float in the kernel and a float sum of ones, at destinations passed through the
  negative-index wrap, in the reference: equal once every node id of the edge list lies in [0, 500000) — the
  precondition's last conjunct — because then the wrap is the identity and a count of fewer than 2^31 edges does not
  overflow. The idealization rewrote nothing, so the kernel's idealization is its own text read at the ideal instance.
-/
import proofs.«107481_j16398185136753_2_alg».proof.Defs
import proofs.«107481_j16398185136753_2_alg».proof.Proof.Gen.Kernel
import proofs.«107481_j16398185136753_2_alg».proof.Proof.Gen.KernelIdeal
import proofs.«107481_j16398185136753_2_alg».proof.Proof.Gen.ReferenceIdeal
import proofs.«107481_j16398185136753_2_alg».proof.Proof.Gen.Pre_finite_inputs
import proofs.«107481_j16398185136753_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
